-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x2048x1024 : Shape := ⟨3, ![8, 2048, 1024]⟩
abbrev S8x1024x2048 : Shape := ⟨3, ![8, 1024, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x2048x1024 : S_.BroadcastsInDim S8x2048x1024 (![] : Fin 0 → Fin S8x2048x1024.rank)
  reducesTo_S8x2048x1024_S_d0_1_2 : S8x2048x1024.ReducesTo [0, 1, 2] S_
  bcast_S_S8x1024x2048 : S_.BroadcastsInDim S8x1024x2048 (![] : Fin 0 → Fin S8x1024x2048.rank)
  reducesTo_S8x1024x2048_S_d0_1_2 : S8x1024x2048.ReducesTo [0, 1, 2] S_

variable [Facts]

def fn_part1 {F : FTy → Type} [FloatOps F] (main_arg5 : FVec F S8x1024x2048 .f32) (main_v13 : IVec S_ 1) (main_v16 : IVec S8x2048x1024 1) : IVec S_ 1 :=
  let main_c_5 : IVec S_ 1 := constantI S_ 1 1#1
  let main_v17 : IVec S_ 1 := (fun x v => Host.reduce IntOp.andi x v reducesTo_S8x2048x1024_S_d0_1_2 h_S_) main_v16 main_c_5
  let main_v18 : IVec S_ 1 := andi main_v13 main_v17
  let main_v19 : FVec F S8x1024x2048 .f32 := Host.absf main_arg5
  let main_cst_6 : FVec F S_ .f32 := constant S_ .f32 0x7F800000#32
  let main_v20 : FVec F S8x1024x2048 .f32 := broadcastInDim S8x1024x2048 ![] bcast_S_S8x1024x2048 main_cst_6
  let main_v21 : IVec S8x1024x2048 1 := cmpf .olt main_v19 main_v20
  let main_c_7 : IVec S_ 1 := constantI S_ 1 1#1
  let main_v22 : IVec S_ 1 := (fun x v => Host.reduce IntOp.andi x v reducesTo_S8x1024x2048_S_d0_1_2 h_S_) main_v21 main_c_7
  let main_v23 : IVec S_ 1 := andi main_v18 main_v22
  main_v23

def fn {F : FTy → Type} [FloatOps F] (main_arg0 : FVec F S8192x1024 .f32) (main_arg1 : IVec S8192x2 32) (main_arg2 : FVec F S8192x2 .f32) (main_arg3 : FVec F S8x2048x1024 .f32) (main_arg4 : FVec F S8x2048x1024 .f32) (main_arg5 : FVec F S8x1024x2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x2048x1024 .f32 := Host.absf main_arg3
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S8x2048x1024 .f32 := Host.absf main_arg4
  let main_cst_4 : FVec F S_ .f32 := constant S_ .f32 0x7F800000#32
  let main_v15 : FVec F S8x2048x1024 .f32 := broadcastInDim S8x2048x1024 ![] bcast_S_S8x2048x1024 main_cst_4
  let main_v16 : IVec S8x2048x1024 1 := cmpf .olt main_v14 main_v15
  fn_part1 (F := F) main_arg5 main_v13 main_v16
-- ==== Kernel.lean ====
abbrev S8192x1024 : Shape := ⟨2, ![8192, 1024]⟩
abbrev S8192x2 : Shape := ⟨2, ![8192, 2]⟩
abbrev S8x2048x1024 : Shape := ⟨3, ![8, 2048, 1024]⟩
abbrev S8x1024x2048 : Shape := ⟨3, ![8, 1024, 2048]⟩
abbrev S8 : Shape := ⟨1, ![8]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S256x1024 : Shape := ⟨2, ![256, 1024]⟩
abbrev S1x1024x2048 : Shape := ⟨3, ![1, 1024, 2048]⟩
abbrev S1x2048x1024 : Shape := ⟨3, ![1, 2048, 1024]⟩
abbrev S256x8 : Shape := ⟨2, ![256, 8]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 28
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S8x2048x1024, .f32⟩
  | .hbm, ⟨4, _⟩ => ⟨S8x2048x1024, .f32⟩
  | .hbm, ⟨5, _⟩ => ⟨S8x1024x2048, .f32⟩
  | .hbm, ⟨6, _⟩ => ⟨S8, .i32⟩
  | .hbm, ⟨7, _⟩ => ⟨S8192x2x1, .i32⟩
  | .hbm, ⟨8, _⟩ => ⟨S1x1x8, .i32⟩
  | .hbm, ⟨9, _⟩ => ⟨S8192x2x8, .i32⟩
  | .hbm, ⟨10, _⟩ => ⟨S8192x2x8, .i32⟩
  | .hbm, ⟨11, _⟩ => ⟨S8192x2x8, .i1⟩
  | .hbm, ⟨12, _⟩ => ⟨S8192x2x1, .f32⟩
  | .hbm, ⟨13, _⟩ => ⟨S_, .f32⟩
  | .hbm, ⟨14, _⟩ => ⟨S_, .f32⟩
  | .hbm, ⟨15, _⟩ => ⟨S8192x2x8, .f32⟩
  | .hbm, ⟨16, _⟩ => ⟨S8192x2x8, .f32⟩
  | .hbm, ⟨17, _⟩ => ⟨S8192x2x8, .f32⟩
  | .hbm, ⟨18, _⟩ => ⟨S_, .f32⟩
  | .hbm, ⟨19, _⟩ => ⟨S8192x8, .f32⟩
  | .hbm, ⟨20, _⟩ => ⟨S8192x1024, .bf16⟩
  | .hbm, ⟨21, _⟩ => ⟨S8x1024x2048, .f32⟩
  | .hbm, ⟨22, _⟩ => ⟨S8x1024x2048, .bf16⟩
  | .hbm, ⟨23, _⟩ => ⟨S8x1024x2048, .f32⟩
  | .hbm, ⟨24, _⟩ => ⟨S8x1024x2048, .bf16⟩
  | .hbm, ⟨25, _⟩ => ⟨S8x2048x1024, .f32⟩
  | .hbm, ⟨26, _⟩ => ⟨S8x2048x1024, .bf16⟩
  | .hbm, ⟨27, _⟩ => ⟨S8192x1024, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S256x8, .f32⟩
  | .local _ .vmem, ⟨9, _⟩ => ⟨S256x8, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_21 : BitVec 32 := 0#32
  let v36 : BitVec 1 := Scalar.cmpi .ne v35 c0_i32_21
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  bcast_S_S8192x2x8 : S_.BroadcastsInDim S8192x2x8 (![] : Fin 0 → Fin S8192x2x8.rank)
  reducesTo_S8192x2x8_S8192x8_d1 : S8192x2x8.ReducesTo [1] S8192x8
  h_S_ : 0 < S_.numel
  bitsLt_bf16_f32 : FTy.bits .bf16 < FTy.bits .f32
  transposes_S8x2048x1024_S8x1024x2048_0_2_1 : S8x2048x1024.Transposes [0, 2, 1] S8x1024x2048
  transposes_S8x1024x2048_S8x2048x1024_0_2_1 : S8x1024x2048.Transposes [0, 2, 1] S8x2048x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S256x8_S256x8_0_0 : ∀ a, (![0, 0] : Fin 2 → Nat) a + S256x8.size a ≤ S256x8.size a
  h_S256x8 : 0 < S256x8.numel
  shapeCasts_S256x8_S256x8 : S256x8.ShapeCasts S256x8
  iota_S256x8_d1_w32 : S256x8.Iotas .tc 32 [1]
  reduces_S256x8_S256 : S256x8.Reduces [1] S256
  shapeCasts_S256_S256x1 : S256.ShapeCasts S256x1
  broadcasts_S256x1_S256x1024 : S256x1.Broadcasts S256x1024
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .bf16 = 32 ∨ (Rect.block (s := S8x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8.size a ≤ S8192x8.size a
  hwx0_4 : ∀ i : grid0.Coords, EltTy.bits .f32 = 32 ∨ (Rect.block (s := S8192x8) S256x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)

variable [Facts₀]

def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v9) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x8.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x2 : Shape := ⟨2, ![8192, 2]⟩
abbrev S8x2048x1024 : Shape := ⟨3, ![8, 2048, 1024]⟩
abbrev S8x1024x2048 : Shape := ⟨3, ![8, 1024, 2048]⟩
abbrev S_ : Shape := ⟨0, ![]⟩
abbrev S8192 : Shape := ⟨1, ![8192]⟩
abbrev S1x2048x1024 : Shape := ⟨3, ![1, 2048, 1024]⟩
abbrev S2048x1024 : Shape := ⟨2, ![2048, 1024]⟩
abbrev S1024x2048 : Shape := ⟨2, ![1024, 2048]⟩
abbrev S8192x2048 : Shape := ⟨2, ![8192, 2048]⟩
abbrev S1x1024x2048 : Shape := ⟨3, ![1, 1024, 2048]⟩
abbrev S8192x1 : Shape := ⟨2, ![8192, 1]⟩

abbrev nBuf : Space → Nat
  | .hbm => 288
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x2048x1024, .f32⟩
  | 4 => ⟨S8x2048x1024, .f32⟩
  | 5 => ⟨S8x1024x2048, .f32⟩
  | 6 => ⟨S_, .f32⟩
  | 7 => ⟨S8192x1024, .f32⟩
  | 8 => ⟨S_, .i32⟩
  | 9 => ⟨S8192x2, .i32⟩
  | 10 => ⟨S8192x2, .i1⟩
  | 11 => ⟨S_, .f32⟩
  | 12 => ⟨S_, .f32⟩
  | 13 => ⟨S8192x2, .f32⟩
  | 14 => ⟨S8192x2, .f32⟩
  | 15 => ⟨S_, .f32⟩
  | 16 => ⟨S8192, .f32⟩
  | 17 => ⟨S1x2048x1024, .f32⟩
  | 18 => ⟨S2048x1024, .f32⟩
  | 19 => ⟨S1024x2048, .f32⟩
  | 20 => ⟨S8192x2048, .f32⟩
  | 21 => ⟨S1x2048x1024, .f32⟩
  | 22 => ⟨S2048x1024, .f32⟩
  | 23 => ⟨S1024x2048, .f32⟩
  | 24 => ⟨S8192x2048, .f32⟩
  | 25 => ⟨S8192x2048, .f32⟩
  | 26 => ⟨S8192x2048, .f32⟩
  | 27 => ⟨S_, .f32⟩
  | 28 => ⟨S8192x2048, .f32⟩
  | 29 => ⟨S8192x2048, .f32⟩
  | 30 => ⟨S_, .f32⟩
  | 31 => ⟨S8192x2048, .f32⟩
  | 32 => ⟨S8192x2048, .f32⟩
  | 33 => ⟨S8192x2048, .f32⟩
  | 34 => ⟨S8192x2048, .f32⟩
  | 35 => ⟨S1x1024x2048, .f32⟩
  | 36 => ⟨S1024x2048, .f32⟩
  | 37 => ⟨S2048x1024, .f32⟩
  | 38 => ⟨S8192x1024, .f32⟩
  | 39 => ⟨S8192x1, .f32⟩
  | 40 => ⟨S8192x1024, .f32⟩
  | 41 => ⟨S8192x1024, .f32⟩
  | 42 => ⟨S8192x1024, .f32⟩
  | 43 => ⟨S_, .i32⟩
  | 44 => ⟨S8192x2, .i32⟩
  | 45 => ⟨S8192x2, .i1⟩
  | 46 => ⟨S_, .f32⟩
  | 47 => ⟨S_, .f32⟩
  | 48 => ⟨S8192x2, .f32⟩
  | 49 => ⟨S8192x2, .f32⟩
  | 50 => ⟨S_, .f32⟩
  | 51 => ⟨S8192, .f32⟩
  | 52 => ⟨S1x2048x1024, .f32⟩
  | 53 => ⟨S2048x1024, .f32⟩
  | 54 => ⟨S1024x2048, .f32⟩
  | 55 => ⟨S8192x2048, .f32⟩
  | 56 => ⟨S1x2048x1024, .f32⟩
  | 57 => ⟨S2048x1024, .f32⟩
  | 58 => ⟨S1024x2048, .f32⟩
  | 59 => ⟨S8192x2048, .f32⟩
  | 60 => ⟨S8192x2048, .f32⟩
  | 61 => ⟨S8192x2048, .f32⟩
  | 62 => ⟨S_, .f32⟩
  | 63 => ⟨S8192x2048, .f32⟩
  | 64 => ⟨S8192x2048, .f32⟩
  | 65 => ⟨S_, .f32⟩
  | 66 => ⟨S8192x2048, .f32⟩
  | 67 => ⟨S8192x2048, .f32⟩
  | 68 => ⟨S8192x2048, .f32⟩
  | 69 => ⟨S8192x2048, .f32⟩
  | 70 => ⟨S1x1024x2048, .f32⟩
  | 71 => ⟨S1024x2048, .f32⟩
  | 72 => ⟨S2048x1024, .f32⟩
  | 73 => ⟨S8192x1024, .f32⟩
  | 74 => ⟨S8192x1, .f32⟩
  | 75 => ⟨S8192x1024, .f32⟩
  | 76 => ⟨S8192x1024, .f32⟩
  | 77 => ⟨S8192x1024, .f32⟩
  | 78 => ⟨S_, .i32⟩
  | 79 => ⟨S8192x2, .i32⟩
  | 80 => ⟨S8192x2, .i1⟩
  | 81 => ⟨S_, .f32⟩
  | 82 => ⟨S_, .f32⟩
  | 83 => ⟨S8192x2, .f32⟩
  | 84 => ⟨S8192x2, .f32⟩
  | 85 => ⟨S_, .f32⟩
  | 86 => ⟨S8192, .f32⟩
  | 87 => ⟨S1x2048x1024, .f32⟩
  | 88 => ⟨S2048x1024, .f32⟩
  | 89 => ⟨S1024x2048, .f32⟩
  | 90 => ⟨S8192x2048, .f32⟩
  | 91 => ⟨S1x2048x1024, .f32⟩
  | 92 => ⟨S2048x1024, .f32⟩
  | 93 => ⟨S1024x2048, .f32⟩
  | 94 => ⟨S8192x2048, .f32⟩
  | 95 => ⟨S8192x2048, .f32⟩
  | 96 => ⟨S8192x2048, .f32⟩
  | 97 => ⟨S_, .f32⟩
  | 98 => ⟨S8192x2048, .f32⟩
  | 99 => ⟨S8192x2048, .f32⟩
  | 100 => ⟨S_, .f32⟩
  | 101 => ⟨S8192x2048, .f32⟩
  | 102 => ⟨S8192x2048, .f32⟩
  | 103 => ⟨S8192x2048, .f32⟩
  | 104 => ⟨S8192x2048, .f32⟩
  | 105 => ⟨S1x1024x2048, .f32⟩
  | 106 => ⟨S1024x2048, .f32⟩
  | 107 => ⟨S2048x1024, .f32⟩
  | 108 => ⟨S8192x1024, .f32⟩
  | 109 => ⟨S8192x1, .f32⟩
  | 110 => ⟨S8192x1024, .f32⟩
  | 111 => ⟨S8192x1024, .f32⟩
  | 112 => ⟨S8192x1024, .f32⟩
  | 113 => ⟨S_, .i32⟩
  | 114 => ⟨S8192x2, .i32⟩
  | 115 => ⟨S8192x2, .i1⟩
  | 116 => ⟨S_, .f32⟩
  | 117 => ⟨S_, .f32⟩
  | 118 => ⟨S8192x2, .f32⟩
  | 119 => ⟨S8192x2, .f32⟩
  | 120 => ⟨S_, .f32⟩
  | 121 => ⟨S8192, .f32⟩
  | 122 => ⟨S1x2048x1024, .f32⟩
  | 123 => ⟨S2048x1024, .f32⟩
  | 124 => ⟨S1024x2048, .f32⟩
  | 125 => ⟨S8192x2048, .f32⟩
  | 126 => ⟨S1x2048x1024, .f32⟩
  | 127 => ⟨S2048x1024, .f32⟩
  | _ => ⟨S8192x1024, .f32⟩

abbrev hbmTy0_1 (i : Nat) : BufTy := match i % 128 with
  | 0 => ⟨S1024x2048, .f32⟩
  | 1 => ⟨S8192x2048, .f32⟩
  | 2 => ⟨S8192x2048, .f32⟩
  | 3 => ⟨S8192x2048, .f32⟩
  | 4 => ⟨S_, .f32⟩
  | 5 => ⟨S8192x2048, .f32⟩
  | 6 => ⟨S8192x2048, .f32⟩
  | 7 => ⟨S_, .f32⟩
  | 8 => ⟨S8192x2048, .f32⟩
  | 9 => ⟨S8192x2048, .f32⟩
  | 10 => ⟨S8192x2048, .f32⟩
  | 11 => ⟨S8192x2048, .f32⟩
  | 12 => ⟨S1x1024x2048, .f32⟩
  | 13 => ⟨S1024x2048, .f32⟩
  | 14 => ⟨S2048x1024, .f32⟩
  | 15 => ⟨S8192x1024, .f32⟩
  | 16 => ⟨S8192x1, .f32⟩
  | 17 => ⟨S8192x1024, .f32⟩
  | 18 => ⟨S8192x1024, .f32⟩
  | 19 => ⟨S8192x1024, .f32⟩
  | 20 => ⟨S_, .i32⟩
  | 21 => ⟨S8192x2, .i32⟩
  | 22 => ⟨S8192x2, .i1⟩
  | 23 => ⟨S_, .f32⟩
  | 24 => ⟨S_, .f32⟩
  | 25 => ⟨S8192x2, .f32⟩
  | 26 => ⟨S8192x2, .f32⟩
  | 27 => ⟨S_, .f32⟩
  | 28 => ⟨S8192, .f32⟩
  | 29 => ⟨S1x2048x1024, .f32⟩
  | 30 => ⟨S2048x1024, .f32⟩
  | 31 => ⟨S1024x2048, .f32⟩
  | 32 => ⟨S8192x2048, .f32⟩
  | 33 => ⟨S1x2048x1024, .f32⟩
  | 34 => ⟨S2048x1024, .f32⟩
  | 35 => ⟨S1024x2048, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S_, .f32⟩
  | 43 => ⟨S8192x2048, .f32⟩
  | 44 => ⟨S8192x2048, .f32⟩
  | 45 => ⟨S8192x2048, .f32⟩
  | 46 => ⟨S8192x2048, .f32⟩
  | 47 => ⟨S1x1024x2048, .f32⟩
  | 48 => ⟨S1024x2048, .f32⟩
  | 49 => ⟨S2048x1024, .f32⟩
  | 50 => ⟨S8192x1024, .f32⟩
  | 51 => ⟨S8192x1, .f32⟩
  | 52 => ⟨S8192x1024, .f32⟩
  | 53 => ⟨S8192x1024, .f32⟩
  | 54 => ⟨S8192x1024, .f32⟩
  | 55 => ⟨S_, .i32⟩
  | 56 => ⟨S8192x2, .i32⟩
  | 57 => ⟨S8192x2, .i1⟩
  | 58 => ⟨S_, .f32⟩
  | 59 => ⟨S_, .f32⟩
  | 60 => ⟨S8192x2, .f32⟩
  | 61 => ⟨S8192x2, .f32⟩
  | 62 => ⟨S_, .f32⟩
  | 63 => ⟨S8192, .f32⟩
  | 64 => ⟨S1x2048x1024, .f32⟩
  | 65 => ⟨S2048x1024, .f32⟩
  | 66 => ⟨S1024x2048, .f32⟩
  | 67 => ⟨S8192x2048, .f32⟩
  | 68 => ⟨S1x2048x1024, .f32⟩
  | 69 => ⟨S2048x1024, .f32⟩
  | 70 => ⟨S1024x2048, .f32⟩
  | 71 => ⟨S8192x2048, .f32⟩
  | 72 => ⟨S8192x2048, .f32⟩
  | 73 => ⟨S8192x2048, .f32⟩
  | 74 => ⟨S_, .f32⟩
  | 75 => ⟨S8192x2048, .f32⟩
  | 76 => ⟨S8192x2048, .f32⟩
  | 77 => ⟨S_, .f32⟩
  | 78 => ⟨S8192x2048, .f32⟩
  | 79 => ⟨S8192x2048, .f32⟩
  | 80 => ⟨S8192x2048, .f32⟩
  | 81 => ⟨S8192x2048, .f32⟩
  | 82 => ⟨S1x1024x2048, .f32⟩
  | 83 => ⟨S1024x2048, .f32⟩
  | 84 => ⟨S2048x1024, .f32⟩
  | 85 => ⟨S8192x1024, .f32⟩
  | 86 => ⟨S8192x1, .f32⟩
  | 87 => ⟨S8192x1024, .f32⟩
  | 88 => ⟨S8192x1024, .f32⟩
  | 89 => ⟨S8192x1024, .f32⟩
  | 90 => ⟨S_, .i32⟩
  | 91 => ⟨S8192x2, .i32⟩
  | 92 => ⟨S8192x2, .i1⟩
  | 93 => ⟨S_, .f32⟩
  | 94 => ⟨S_, .f32⟩
  | 95 => ⟨S8192x2, .f32⟩
  | 96 => ⟨S8192x2, .f32⟩
  | 97 => ⟨S_, .f32⟩
  | 98 => ⟨S8192, .f32⟩
  | 99 => ⟨S1x2048x1024, .f32⟩
  | 100 => ⟨S2048x1024, .f32⟩
  | 101 => ⟨S1024x2048, .f32⟩
  | 102 => ⟨S8192x2048, .f32⟩
  | 103 => ⟨S1x2048x1024, .f32⟩
  | 104 => ⟨S2048x1024, .f32⟩
  | 105 => ⟨S1024x2048, .f32⟩
  | 106 => ⟨S8192x2048, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S_, .f32⟩
  | 113 => ⟨S8192x2048, .f32⟩
  | 114 => ⟨S8192x2048, .f32⟩
  | 115 => ⟨S8192x2048, .f32⟩
  | 116 => ⟨S8192x2048, .f32⟩
  | 117 => ⟨S1x1024x2048, .f32⟩
  | 118 => ⟨S1024x2048, .f32⟩
  | 119 => ⟨S2048x1024, .f32⟩
  | 120 => ⟨S8192x1024, .f32⟩
  | 121 => ⟨S8192x1, .f32⟩
  | 122 => ⟨S8192x1024, .f32⟩
  | 123 => ⟨S8192x1024, .f32⟩
  | 124 => ⟨S8192x1024, .f32⟩
  | 125 => ⟨S_, .i32⟩
  | 126 => ⟨S8192x2, .i32⟩
  | 127 => ⟨S8192x2, .i1⟩
  | _ => ⟨S8192x1024, .f32⟩

abbrev hbmTy0_2 (i : Nat) : BufTy := match i % 128 with
  | 0 => ⟨S_, .f32⟩
  | 1 => ⟨S_, .f32⟩
  | 2 => ⟨S8192x2, .f32⟩
  | 3 => ⟨S8192x2, .f32⟩
  | 4 => ⟨S_, .f32⟩
  | 5 => ⟨S8192, .f32⟩
  | 6 => ⟨S1x2048x1024, .f32⟩
  | 7 => ⟨S2048x1024, .f32⟩
  | 8 => ⟨S1024x2048, .f32⟩
  | 9 => ⟨S8192x2048, .f32⟩
  | 10 => ⟨S1x2048x1024, .f32⟩
  | 11 => ⟨S2048x1024, .f32⟩
  | 12 => ⟨S1024x2048, .f32⟩
  | 13 => ⟨S8192x2048, .f32⟩
  | 14 => ⟨S8192x2048, .f32⟩
  | 15 => ⟨S8192x2048, .f32⟩
  | 16 => ⟨S_, .f32⟩
  | 17 => ⟨S8192x2048, .f32⟩
  | 18 => ⟨S8192x2048, .f32⟩
  | 19 => ⟨S_, .f32⟩
  | 20 => ⟨S8192x2048, .f32⟩
  | 21 => ⟨S8192x2048, .f32⟩
  | 22 => ⟨S8192x2048, .f32⟩
  | 23 => ⟨S8192x2048, .f32⟩
  | 24 => ⟨S1x1024x2048, .f32⟩
  | 25 => ⟨S1024x2048, .f32⟩
  | 26 => ⟨S2048x1024, .f32⟩
  | 27 => ⟨S8192x1024, .f32⟩
  | 28 => ⟨S8192x1, .f32⟩
  | 29 => ⟨S8192x1024, .f32⟩
  | 30 => ⟨S8192x1024, .f32⟩
  | 31 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_call2_v0 : Ref sig .tc := ⟨.hbm, 47, rfl⟩
abbrev main_call2_v1 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_5 : Ref sig .tc := ⟨.hbm, 78, rfl⟩
abbrev main_v45 : Ref sig .tc := ⟨.hbm, 79, rfl⟩
abbrev main_v46 : Ref sig .tc := ⟨.hbm, 80, rfl⟩
abbrev main_cst_6 : Ref sig .tc := ⟨.hbm, 81, rfl⟩
abbrev main_call4_v0 : Ref sig .tc := ⟨.hbm, 82, rfl⟩
abbrev main_call4_v1 : Ref sig .tc := ⟨.hbm, 83, rfl⟩
abbrev main_v47 : Ref sig .tc := ⟨.hbm, 84, rfl⟩
abbrev main_cst_7 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_call5_v0 : Ref sig .tc := ⟨.hbm, 95, rfl⟩
abbrev main_call5_v1 : Ref sig .tc := ⟨.hbm, 96, rfl⟩
abbrev main_call5_cst : Ref sig .tc := ⟨.hbm, 97, rfl⟩
abbrev main_call5_v2 : Ref sig .tc := ⟨.hbm, 98, rfl⟩
abbrev main_call5_v3 : Ref sig .tc := ⟨.hbm, 99, rfl⟩
abbrev main_call5_cst_0 : Ref sig .tc := ⟨.hbm, 100, rfl⟩
abbrev main_call5_v4 : Ref sig .tc := ⟨.hbm, 101, rfl⟩
abbrev main_call5_v5 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_8 : Ref sig .tc := ⟨.hbm, 113, rfl⟩
abbrev main_v67 : Ref sig .tc := ⟨.hbm, 114, rfl⟩
abbrev main_v68 : Ref sig .tc := ⟨.hbm, 115, rfl⟩
abbrev main_cst_9 : Ref sig .tc := ⟨.hbm, 116, rfl⟩
abbrev main_call6_v0 : Ref sig .tc := ⟨.hbm, 117, rfl⟩
abbrev main_call6_v1 : Ref sig .tc := ⟨.hbm, 118, rfl⟩
abbrev main_v69 : Ref sig .tc := ⟨.hbm, 119, rfl⟩
abbrev main_cst_10 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_call7_v0 : Ref sig .tc := ⟨.hbm, 130, rfl⟩
abbrev main_call7_v1 : Ref sig .tc := ⟨.hbm, 131, rfl⟩
abbrev main_call7_cst : Ref sig .tc := ⟨.hbm, 132, rfl⟩
abbrev main_call7_v2 : Ref sig .tc := ⟨.hbm, 133, rfl⟩
abbrev main_call7_v3 : Ref sig .tc := ⟨.hbm, 134, rfl⟩
abbrev main_call7_cst_0 : Ref sig .tc := ⟨.hbm, 135, rfl⟩
abbrev main_call7_v4 : Ref sig .tc := ⟨.hbm, 136, rfl⟩
abbrev main_call7_v5 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_11 : Ref sig .tc := ⟨.hbm, 148, rfl⟩
abbrev main_v89 : Ref sig .tc := ⟨.hbm, 149, rfl⟩
abbrev main_v90 : Ref sig .tc := ⟨.hbm, 150, rfl⟩
abbrev main_cst_12 : Ref sig .tc := ⟨.hbm, 151, rfl⟩
abbrev main_call8_v0 : Ref sig .tc := ⟨.hbm, 152, rfl⟩
abbrev main_call8_v1 : Ref sig .tc := ⟨.hbm, 153, rfl⟩
abbrev main_v91 : Ref sig .tc := ⟨.hbm, 154, rfl⟩
abbrev main_cst_13 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_call9_v0 : Ref sig .tc := ⟨.hbm, 165, rfl⟩
abbrev main_call9_v1 : Ref sig .tc := ⟨.hbm, 166, rfl⟩
abbrev main_call9_cst : Ref sig .tc := ⟨.hbm, 167, rfl⟩
abbrev main_call9_v2 : Ref sig .tc := ⟨.hbm, 168, rfl⟩
abbrev main_call9_v3 : Ref sig .tc := ⟨.hbm, 169, rfl⟩
abbrev main_call9_cst_0 : Ref sig .tc := ⟨.hbm, 170, rfl⟩
abbrev main_call9_v4 : Ref sig .tc := ⟨.hbm, 171, rfl⟩
abbrev main_call9_v5 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_c_14 : Ref sig .tc := ⟨.hbm, 183, rfl⟩
abbrev main_v111 : Ref sig .tc := ⟨.hbm, 184, rfl⟩
abbrev main_v112 : Ref sig .tc := ⟨.hbm, 185, rfl⟩
abbrev main_cst_15 : Ref sig .tc := ⟨.hbm, 186, rfl⟩
abbrev main_call10_v0 : Ref sig .tc := ⟨.hbm, 187, rfl⟩
abbrev main_call10_v1 : Ref sig .tc := ⟨.hbm, 188, rfl⟩
abbrev main_v113 : Ref sig .tc := ⟨.hbm, 189, rfl⟩
abbrev main_cst_16 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_call11_v0 : Ref sig .tc := ⟨.hbm, 200, rfl⟩
abbrev main_call11_v1 : Ref sig .tc := ⟨.hbm, 201, rfl⟩
abbrev main_call11_cst : Ref sig .tc := ⟨.hbm, 202, rfl⟩
abbrev main_call11_v2 : Ref sig .tc := ⟨.hbm, 203, rfl⟩
abbrev main_call11_v3 : Ref sig .tc := ⟨.hbm, 204, rfl⟩
abbrev main_call11_cst_0 : Ref sig .tc := ⟨.hbm, 205, rfl⟩
abbrev main_call11_v4 : Ref sig .tc := ⟨.hbm, 206, rfl⟩
abbrev main_call11_v5 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_c_17 : Ref sig .tc := ⟨.hbm, 218, rfl⟩
abbrev main_v133 : Ref sig .tc := ⟨.hbm, 219, rfl⟩
abbrev main_v134 : Ref sig .tc := ⟨.hbm, 220, rfl⟩
abbrev main_cst_18 : Ref sig .tc := ⟨.hbm, 221, rfl⟩
abbrev main_call12_v0 : Ref sig .tc := ⟨.hbm, 222, rfl⟩
abbrev main_call12_v1 : Ref sig .tc := ⟨.hbm, 223, rfl⟩
abbrev main_v135 : Ref sig .tc := ⟨.hbm, 224, rfl⟩
abbrev main_cst_19 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_call13_v0 : Ref sig .tc := ⟨.hbm, 235, rfl⟩
abbrev main_call13_v1 : Ref sig .tc := ⟨.hbm, 236, rfl⟩
abbrev main_call13_cst : Ref sig .tc := ⟨.hbm, 237, rfl⟩
abbrev main_call13_v2 : Ref sig .tc := ⟨.hbm, 238, rfl⟩
abbrev main_call13_v3 : Ref sig .tc := ⟨.hbm, 239, rfl⟩
abbrev main_call13_cst_0 : Ref sig .tc := ⟨.hbm, 240, rfl⟩
abbrev main_call13_v4 : Ref sig .tc := ⟨.hbm, 241, rfl⟩
abbrev main_call13_v5 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_c_20 : Ref sig .tc := ⟨.hbm, 253, rfl⟩
abbrev main_v155 : Ref sig .tc := ⟨.hbm, 254, rfl⟩
abbrev main_v156 : Ref sig .tc := ⟨.hbm, 255, rfl⟩
abbrev main_cst_21 : Ref sig .tc := ⟨.hbm, 256, rfl⟩
abbrev main_call14_v0 : Ref sig .tc := ⟨.hbm, 257, rfl⟩
abbrev main_call14_v1 : Ref sig .tc := ⟨.hbm, 258, rfl⟩
abbrev main_v157 : Ref sig .tc := ⟨.hbm, 259, rfl⟩
abbrev main_cst_22 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_v166 : Ref sig .tc := ⟨.hbm, 269, rfl⟩
abbrev main_call15_v0 : Ref sig .tc := ⟨.hbm, 270, rfl⟩
abbrev main_call15_v1 : Ref sig .tc := ⟨.hbm, 271, rfl⟩
abbrev main_call15_cst : Ref sig .tc := ⟨.hbm, 272, rfl⟩
abbrev main_call15_v2 : Ref sig .tc := ⟨.hbm, 273, rfl⟩
abbrev main_call15_v3 : Ref sig .tc := ⟨.hbm, 274, rfl⟩
abbrev main_call15_cst_0 : Ref sig .tc := ⟨.hbm, 275, rfl⟩
abbrev main_call15_v4 : Ref sig .tc := ⟨.hbm, 276, rfl⟩
abbrev main_call15_v5 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x2048x1024_S1x2048x1024_0_0_0 : S8x2048x1024.Slices ![0, 0, 0] S1x2048x1024
  shapeCasts_S1x2048x1024_S2048x1024 : S1x2048x1024.ShapeCasts S2048x1024
  transposes_S2048x1024_S1024x2048_1_0 : S2048x1024.Transposes [1, 0] S1024x2048
  bcast_S_S8192x2048 : S_.BroadcastsInDim S8192x2048 (![] : Fin 0 → Fin S8192x2048.rank)
  slices_S8x1024x2048_S1x1024x2048_0_0_0 : S8x1024x2048.Slices ![0, 0, 0] S1x1024x2048
  shapeCasts_S1x1024x2048_S1024x2048 : S1x1024x2048.ShapeCasts S1024x2048
  transposes_S1024x2048_S2048x1024_1_0 : S1024x2048.Transposes [1, 0] S2048x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x2048x1024_S1x2048x1024_1_0_0 : S8x2048x1024.Slices ![1, 0, 0] S1x2048x1024
  slices_S8x1024x2048_S1x1024x2048_1_0_0 : S8x1024x2048.Slices ![1, 0, 0] S1x1024x2048
  slices_S8x2048x1024_S1x2048x1024_2_0_0 : S8x2048x1024.Slices ![2, 0, 0] S1x2048x1024
  slices_S8x1024x2048_S1x1024x2048_2_0_0 : S8x1024x2048.Slices ![2, 0, 0] S1x1024x2048
  slices_S8x2048x1024_S1x2048x1024_3_0_0 : S8x2048x1024.Slices ![3, 0, 0] S1x2048x1024
  slices_S8x1024x2048_S1x1024x2048_3_0_0 : S8x1024x2048.Slices ![3, 0, 0] S1x1024x2048
  slices_S8x2048x1024_S1x2048x1024_4_0_0 : S8x2048x1024.Slices ![4, 0, 0] S1x2048x1024
  slices_S8x1024x2048_S1x1024x2048_4_0_0 : S8x1024x2048.Slices ![4, 0, 0] S1x1024x2048
  slices_S8x2048x1024_S1x2048x1024_5_0_0 : S8x2048x1024.Slices ![5, 0, 0] S1x2048x1024
  slices_S8x1024x2048_S1x1024x2048_5_0_0 : S8x1024x2048.Slices ![5, 0, 0] S1x1024x2048
  slices_S8x2048x1024_S1x2048x1024_6_0_0 : S8x2048x1024.Slices ![6, 0, 0] S1x2048x1024
  slices_S8x1024x2048_S1x1024x2048_6_0_0 : S8x1024x2048.Slices ![6, 0, 0] S1x1024x2048
  slices_S8x2048x1024_S1x2048x1024_7_0_0 : S8x2048x1024.Slices ![7, 0, 0] S1x2048x1024
  slices_S8x1024x2048_S1x1024x2048_7_0_0 : S8x1024x2048.Slices ![7, 0, 0] S1x1024x2048
  dot_S8192x1024_S1024x2048_S8192x2048_1_0_0_1_n_n_wf : DotDims.WF S8192x1024 S1024x2048 S8192x2048 [1] [0] [0] [1] [] []
  dot_S8192x2048_S2048x1024_S8192x1024_1_0_0_1_n_n_wf : DotDims.WF S8192x2048 S2048x1024 S8192x1024 [1] [0] [0] [1] [] []

variable [Facts₀]

def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.Spec.lean ====
/-
  The mixture-of-experts layer as ONE function of its argument arrays, index by index, over the extended reals.

  Token `t` has activations `x t ·` (1024 wide), two routing slots `k` holding an expert number `idx t k`
  and a weight `w t k`, and there are eight experts `e`, each a gated two-layer network:
    * the two projections `proj x Wg e t h = ∑ d, x t d · Wg e h d` and `proj x Wu e t h` (2048 wide),
    * the gated hidden value `(g · logistic g) · u`,
    * the expert's output `∑ h, hidden e t h · Wd e j h` (1024 wide),
    * the token's combined weight for the expert, `∑ k, (w t k if idx t k = e else 0)`.
  The layer's output at `(t, j)` is the sum over the experts of output times weight, taken in the experts' order
  from zero: `(((0 + o₀·w₀) + o₁·w₁) + …) + o₇·w₇` — `accum` is that partial sum after `n` experts.
  Both programs compute exactly this association, so no law of the extended reals beyond `0 + a = a` is needed.
-/
import Idealize.ShloMosaic.PureOps.Ideal
import Idealize.ShloMosaic.Lib.ValueIdx

noncomputable section

namespace Moe

open Idealize.ShloMosaic Idealize.ShloMosaic.ValueIdx

/-- Activations, f32[8192, 1024]. -/
abbrev Act := (⟨2, ![8192, 1024]⟩ : Shape).Idx → EReal
/-- Routing slots, [8192, 2]: expert numbers as 32-bit words, and weights. -/
abbrev Slot := (⟨2, ![8192, 2]⟩ : Shape).Idx → BitVec 32
abbrev SlotW := (⟨2, ![8192, 2]⟩ : Shape).Idx → EReal
/-- The up-projections' weights, f32[8, 2048, 1024], and the down-projection's, f32[8, 1024, 2048]. -/
abbrev Up := (⟨3, ![8, 2048, 1024]⟩ : Shape).Idx → EReal
abbrev Down := (⟨3, ![8, 1024, 2048]⟩ : Shape).Idx → EReal

/-- One projection of token `t` by expert `e`: row `h` of the expert's matrix against the token. -/
def proj (x : Act) (W : Up) (e : Fin 8) (t : Fin 8192) (h : Fin 2048) : EReal :=
  ∑ d : Fin 1024, x (ix2 t d) * W (ix3 e h d)

/-- The gated hidden value: `silu` of the gate projection times the up projection. -/
def hidden (x : Act) (Wg Wu : Up) (e : Fin 8) (t : Fin 8192) (h : Fin 2048) : EReal :=
  proj x Wg e t h * Ideal.logistic (proj x Wg e t h) * proj x Wu e t h

/-- Expert `e`'s output for token `t` at column `j`. -/
def expertOut (x : Act) (Wg Wu : Up) (Wd : Down) (e : Fin 8) (t : Fin 8192) (j : Fin 1024) : EReal :=
  ∑ h : Fin 2048, hidden x Wg Wu e t h * Wd (ix3 e j h)

/-- Token `t`'s combined routing weight for expert `e`: its slots' weights where the slot names `e`. -/
def weight (idx : Slot) (w : SlotW) (e : Fin 8) (t : Fin 8192) : EReal :=
  ∑ k : Fin 2, Scalar.select (IntOp.cmpi .eq (idx (ix2 t k)) (BitVec.ofNat 32 e.val)) (w (ix2 t k)) 0

/-- The partial sum over the first `n` experts, in order, from zero. -/
def accum (x : Act) (idx : Slot) (w : SlotW) (Wg Wu : Up) (Wd : Down) (t : Fin 8192) (j : Fin 1024) :
    (n : ℕ) → n ≤ 8 → EReal
  | 0, _ => 0
  | n + 1, h => accum x idx w Wg Wu Wd t j n (Nat.le_of_succ_le h)
      + expertOut x Wg Wu Wd ⟨n, h⟩ t j * weight idx w ⟨n, h⟩ t

/-- The layer: all eight experts. -/
def layer (x : Act) (idx : Slot) (w : SlotW) (Wg Wu : Up) (Wd : Down) : Act :=
  fun i => accum x idx w Wg Wu Wd (i 0) (i 1) 8 le_rfl

theorem accum_succ (x : Act) (idx : Slot) (w : SlotW) (Wg Wu : Up) (Wd : Down) (t : Fin 8192) (j : Fin 1024)
    (n : ℕ) (h : n + 1 ≤ 8) :
    accum x idx w Wg Wu Wd t j (n + 1) h = accum x idx w Wg Wu Wd t j n (Nat.le_of_succ_le h)
      + expertOut x Wg Wu Wd ⟨n, h⟩ t j * weight idx w ⟨n, h⟩ t := rfl

end Moe

end
-- ==== Proof.RefValue.lean ====
/-
  The reference program's result as the specification's layer, index by index, over the extended reals.

  The reference adds, expert by expert from zero, the product of the expert's output and the token's combined routing
  weight for that expert. One expert's step is the same pure term at every expert number `e` (`stepTerm`): the
  expert's three weight matrices are slices of the stacked ones at offset `e`, and the routing weight compares the
  slots' expert numbers with the word `e`. Read at an index `(t, j)` the step adds `expertOut e t j * weight e t`
  to the accumulator (`stepTerm_apply`): each matrix product is the sum over its one contracted coordinate, each
  slice, cast and transpose reads one element of the stacked matrix, the gate is `g * (1 / (1 + exp (-g)))`, which is
  `g * logistic g` by the definition of the logistic function, and the routing weight is zero plus the sum over the
  two slots. Eight steps from the zero array are the specification's `accum` at 8, in the same association.
-/
import proofs.«142969_j18502719111701_1_alg».proof.ReferenceIdeal
import proofs.«142969_j18502719111701_1_alg».proof.Proof.Gen.ReferenceIdeal
import proofs.«142969_j18502719111701_1_alg».proof.Proof.Spec
import proofs.«142969_j18502719111701_1_alg».proof.Proof.RefRunP
import Idealize.ShloMosaic.Lib.IdealHost
import Idealize.ShloMosaic.Lib.StackMember
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open scoped BigOperators

/-! ## One expert's matrix: a slice of the stack, its unit axis dropped, transposed -/

/-- Slice `e` of a stack of eight `A × B` matrices, cast to `A × B` and transposed to `B × A`, read at `(b, a)`, is
    the stack at `(e, a, b)`. -/
theorem sliceT_apply {A B : ℕ} (e : ℕ) (he : e < 8) (W : (⟨3, ![8, A, B]⟩ : Shape).Idx → EReal)
    (hS : (⟨3, ![8, A, B]⟩ : Shape).Slices ![e, 0, 0] ⟨3, ![1, A, B]⟩)
    (hC : (⟨3, ![1, A, B]⟩ : Shape).ShapeCasts ⟨2, ![A, B]⟩)
    (hT : (⟨2, ![A, B]⟩ : Shape).Transposes [1, 0] ⟨2, ![B, A]⟩) (b : Fin B) (a : Fin A) :
    transpose ⟨2, ![B, A]⟩ [1, 0] (shapeCast ⟨2, ![A, B]⟩ (extractStridedSlice ⟨3, ![1, A, B]⟩ ![e, 0, 0] W hS) hC) hT
        (ix2 b a)
      = W (ix3 (⟨e, he⟩ : Fin 8) a b) := by
  refine (transpose_apply [1, 0] _ hT (ix2 b a) (ix2 a b) ?_).trans ?_
  · intro c
    match c with
    | ⟨0, _⟩ => rfl
    | ⟨1, _⟩ => rfl
  refine (shapeCast_apply _ hC (ix2 a b) (ix3 (0 : Fin 1) a b) ?_).trans ?_
  · rw [Shape.rowMajor_val_three, Shape.rowMajor_val_two]
    show (0 * A + a.val) * B + b.val = a.val * B + b.val
    rw [Nat.zero_mul, Nat.zero_add]
  refine extractStridedSlice_apply ![e, 0, 0] W hS (ix3 (0 : Fin 1) a b) (ix3 (⟨e, he⟩ : Fin 8) a b) ?_
  intro c
  match c with
  | ⟨0, _⟩ => show e = e + 0; omega
  | ⟨1, _⟩ => show a.val = 0 + a.val; omega
  | ⟨2, _⟩ => show b.val = 0 + b.val; omega

/-! ## The two matrix products, as sums over the contracted coordinate -/

/-- The up products' dimension numbers are the plain `M×K` by `K×N` ones. -/
theorem dotUp_apply (X : FVec Ideal S8192x1024 .f32) (R : FVec Ideal S1024x2048 .f32) (t : Fin 8192) (h : Fin 2048) :
    Host.dotGeneral dot_S8192x1024_S1024x2048_S8192x2048_1_0_0_1_n_n none X R (ix2 t h)
      = ∑ d : Fin 1024, X (ix2 t d) * R (ix2 d h) :=
  StackMember.dotGeneral_plain_apply none X R t h

/-- The down product likewise. -/
theorem dotDown_apply (X : FVec Ideal S8192x2048 .f32) (R : FVec Ideal S2048x1024 .f32) (t : Fin 8192) (j : Fin 1024) :
    Host.dotGeneral dot_S8192x2048_S2048x1024_S8192x1024_1_0_0_1_n_n none X R (ix2 t j)
      = ∑ h : Fin 2048, X (ix2 t h) * R (ix2 h j) :=
  StackMember.dotGeneral_plain_apply none X R t j

/-! ## One expert's step, as the pure operations the program applies -/

/-- Expert `e`'s up matrix as the products' right operand: slice `e` of the stack, cast to `2048 × 1024`, transposed. -/
def upMat (e : ℕ) (hG : S8x2048x1024.Slices ![e, 0, 0] S1x2048x1024) (W : FVec Ideal S8x2048x1024 .f32) :
    FVec Ideal S1024x2048 .f32 :=
  transpose S1024x2048 [1, 0] (shapeCast _ (extractStridedSlice S1x2048x1024 ![e, 0, 0] W hG) shapeCasts_S1x2048x1024_S2048x1024) transposes_S2048x1024_S1024x2048_1_0

/-- Expert `e`'s down matrix as the product's right operand. -/
def downMat (e : ℕ) (hD : S8x1024x2048.Slices ![e, 0, 0] S1x1024x2048) (W : FVec Ideal S8x1024x2048 .f32) :
    FVec Ideal S2048x1024 .f32 :=
  transpose S2048x1024 [1, 0] (shapeCast _ (extractStridedSlice S1x1024x2048 ![e, 0, 0] W hD) shapeCasts_S1x1024x2048_S1024x2048) transposes_S1024x2048_S2048x1024_1_0

/-- One projection of every token by expert `e`. -/
def projT (e : ℕ) (hG : S8x2048x1024.Slices ![e, 0, 0] S1x2048x1024) (x : FVec Ideal S8192x1024 .f32)
    (W : FVec Ideal S8x2048x1024 .f32) : FVec Ideal S8192x2048 .f32 :=
  Host.dotGeneral dot_S8192x1024_S1024x2048_S8192x2048_1_0_0_1_n_n none x (upMat e hG W)

/-- The splat of one. -/
def oneT : FVec Ideal S8192x2048 .f32 :=
  broadcastInDim S8192x2048 ![] bcast_S_S8192x2048 (constant (F := Ideal) S_ .f32 0x3F800000#32)

/-- The gated hidden array from the gate and up projections: `g * (1 / (1 + exp (-g))) * u`. -/
def gateT (G V : FVec Ideal S8192x2048 .f32) : FVec Ideal S8192x2048 .f32 :=
  mulf (mulf G (Host.divf oneT (addf oneT (Host.exp (Host.negf G))))) V

/-- Every token's combined routing weight for expert `e`, broadcast along the columns. -/
def weightT (e : ℕ) (idx : IVec S8192x2 32) (w : FVec Ideal S8192x2 .f32) : FVec Ideal S8192x1024 .f32 :=
  broadcastInDim S8192x1024 ![0, 1] bcast_S8192x1_S8192x1024_0_1 (broadcastInDim S8192x1 ![0] bcast_S8192_S8192x1_0 (Host.reduceAdd (select (cmpi .eq idx (broadcastInDim S8192x2 ![] bcast_S_S8192x2 (constantI S_ 32 (BitVec.ofNat 32 e)))) w (broadcastInDim S8192x2 ![] bcast_S_S8192x2 (id (constant (F := Ideal) S_ .f32 0x00000000#32)))) (constant (F := Ideal) S_ .f32 0x00000000#32) reducesTo_S8192x2_S8192_d1 h_S_))

/-- ONE EXPERT'S STEP: the accumulator plus the expert's output times the routing weight, in the program's operations. -/
def stepTerm (e : ℕ) (hG : S8x2048x1024.Slices ![e, 0, 0] S1x2048x1024) (hD : S8x1024x2048.Slices ![e, 0, 0] S1x1024x2048)
    (x : FVec Ideal S8192x1024 .f32) (idx : IVec S8192x2 32) (w : FVec Ideal S8192x2 .f32)
    (Wg Wu : FVec Ideal S8x2048x1024 .f32) (Wd : FVec Ideal S8x1024x2048 .f32) (acc : FVec Ideal S8192x1024 .f32) :
    FVec Ideal S8192x1024 .f32 :=
  addf acc (mulf (Host.dotGeneral dot_S8192x2048_S2048x1024_S8192x1024_1_0_0_1_n_n none
      (gateT (projT e hG x Wg) (projT e hG x Wu)) (downMat e hD Wd)) (weightT e idx w))

/-! ## The step's pieces read at an index -/

theorem projT_apply (e : ℕ) (he : e < 8) (hG : S8x2048x1024.Slices ![e, 0, 0] S1x2048x1024)
    (x : FVec Ideal S8192x1024 .f32) (W : FVec Ideal S8x2048x1024 .f32) (t : Fin 8192) (h : Fin 2048) :
    projT e hG x W (ix2 t h) = Moe.proj x W ⟨e, he⟩ t h := by
  unfold projT Moe.proj
  rw [dotUp_apply]
  refine Finset.sum_congr rfl fun d _ => ?_
  exact congrArg (x (ix2 t d) * ·) (sliceT_apply e he W hG _ _ d h)

theorem oneT_apply (i : S8192x2048.Idx) : oneT i = (1 : EReal) := by
  unfold oneT
  rw [broadcastInDim_scalar_apply, constant_apply, Ideal.ofBits_one_f32]

/-- The gate at an index: `1 / (1 + exp (-g))` is the logistic function of `g` by its definition. -/
theorem gateT_apply (G V : FVec Ideal S8192x2048 .f32) (i : S8192x2048.Idx) :
    gateT G V i = G i * Ideal.logistic (G i) * V i := by
  unfold gateT
  rw [mulf_apply, mulf_apply, hostDivf_apply, addf_apply, oneT_apply]
  rfl

/-- One slot's term of the routing weight. -/
theorem slot_apply (e : ℕ) (idx : IVec S8192x2 32) (w : FVec Ideal S8192x2 .f32) (i : S8192x2.Idx) :
    select (cmpi .eq idx (broadcastInDim S8192x2 ![] bcast_S_S8192x2 (constantI S_ 32 (BitVec.ofNat 32 e)))) w
        (broadcastInDim S8192x2 ![] bcast_S_S8192x2 (id (constant (F := Ideal) S_ .f32 0x00000000#32))) i
      = Scalar.select (IntOp.cmpi .eq (idx i) (BitVec.ofNat 32 e)) (w i) (0 : EReal) := by
  show Scalar.select (IntOp.cmpi .eq (idx i) (broadcastInDim S8192x2 ![] bcast_S_S8192x2 (constantI S_ 32 (BitVec.ofNat 32 e)) i)) (w i)
      (broadcastInDim S8192x2 ![] bcast_S_S8192x2 (constant (F := Ideal) S_ .f32 0x00000000#32) i) = _
  rw [broadcastInDim_scalar_apply, broadcastInDim_scalar_apply, constant_apply, Ideal.ofBits_zero_f32]
  rfl

theorem weightT_apply (e : ℕ) (he : e < 8) (idx : IVec S8192x2 32) (w : FVec Ideal S8192x2 .f32) (t : Fin 8192) (j : Fin 1024) :
    weightT e idx w (ix2 t j) = Moe.weight idx w ⟨e, he⟩ t := by
  unfold weightT
  refine (broadcastInDim_apply ![0, 1] bcast_S8192x1_S8192x1024_0_1 _ (ix2 t j) (ix2 t (0 : Fin 1)) ?_).trans ?_
  · intro a
    match a with
    | ⟨0, _⟩ => rfl
    | ⟨1, _⟩ => rfl
  refine (broadcastInDim_apply ![0] bcast_S8192_S8192x1_0 _ (ix2 t (0 : Fin 1)) (ix1 t) ?_).trans ?_
  · intro a
    match a with
    | ⟨0, _⟩ => rfl
  have hR : S8192x2.Reduces [1] S8192 := by decide
  rw [hostReduceAdd_apply, Ideal.hostReduceAdd_single reducesTo_S8192x2_S8192_d1 hR, constant_apply, Ideal.ofBits_zero_f32, zero_add]
  unfold Moe.weight
  refine Finset.sum_congr rfl fun k _ => ?_
  have hl : hR.lift (ix1 t) k = ix2 t k := by
    funext c
    apply Fin.ext
    match c with
    | ⟨0, _⟩ => rfl
    | ⟨1, _⟩ => rfl
  rw [hl]
  exact slot_apply e idx w (ix2 t k)

/-- ONE EXPERT'S STEP AT AN INDEX. -/
theorem stepTerm_apply (e : ℕ) (he : e < 8) (hG : S8x2048x1024.Slices ![e, 0, 0] S1x2048x1024)
    (hD : S8x1024x2048.Slices ![e, 0, 0] S1x1024x2048)
    (x : FVec Ideal S8192x1024 .f32) (idx : IVec S8192x2 32) (w : FVec Ideal S8192x2 .f32)
    (Wg Wu : FVec Ideal S8x2048x1024 .f32) (Wd : FVec Ideal S8x1024x2048 .f32) (acc : FVec Ideal S8192x1024 .f32)
    (i : S8192x1024.Idx) :
    stepTerm e hG hD x idx w Wg Wu Wd acc i
      = acc i + Moe.expertOut x Wg Wu Wd ⟨e, he⟩ (i 0) (i 1) * Moe.weight idx w ⟨e, he⟩ (i 0) := by
  obtain ⟨t, j, rfl⟩ : ∃ (t : Fin 8192) (j : Fin 1024), i = ix2 t j := ⟨i 0, i 1, eq_ix2 i⟩
  unfold stepTerm
  rw [addf_apply, mulf_apply, weightT_apply e he, dotDown_apply]
  show acc (ix2 t j) + _ * Moe.weight idx w ⟨e, he⟩ t = acc (ix2 t j) + Moe.expertOut x Wg Wu Wd ⟨e, he⟩ t j * Moe.weight idx w ⟨e, he⟩ t
  unfold Moe.expertOut Moe.hidden
  refine congrArg (fun s => acc (ix2 t j) + s * Moe.weight idx w ⟨e, he⟩ t) (Finset.sum_congr rfl fun h _ => ?_)
  rw [gateT_apply, projT_apply e he, projT_apply e he]
  exact congrArg (_ * ·) (sliceT_apply e he Wd hD _ _ h j)

/-! ## Eight steps from zero are the layer -/

/-- The zero array the sum starts from. -/
def zeroT : FVec Ideal S8192x1024 .f32 :=
  broadcastInDim S8192x1024 ![] bcast_S_S8192x1024 (constant (F := Ideal) S_ .f32 0x00000000#32)

theorem zeroT_apply (i : S8192x1024.Idx) : zeroT i = (0 : EReal) := by
  unfold zeroT
  rw [broadcastInDim_scalar_apply, constant_apply, Ideal.ofBits_zero_f32]

/-- A step from the partial sum over the first `e` experts gives the partial sum over the first `e + 1`. -/
theorem step_accum (x : FVec Ideal S8192x1024 .f32) (idx : IVec S8192x2 32) (w : FVec Ideal S8192x2 .f32)
    (Wg Wu : FVec Ideal S8x2048x1024 .f32) (Wd : FVec Ideal S8x1024x2048 .f32) (e : ℕ) (he : e + 1 ≤ 8)
    (hG : S8x2048x1024.Slices ![e, 0, 0] S1x2048x1024) (hD : S8x1024x2048.Slices ![e, 0, 0] S1x1024x2048)
    (acc : FVec Ideal S8192x1024 .f32) (i : S8192x1024.Idx)
    (hacc : acc i = Moe.accum x idx w Wg Wu Wd (i 0) (i 1) e (Nat.le_of_succ_le he)) :
    stepTerm e hG hD x idx w Wg Wu Wd acc i = Moe.accum x idx w Wg Wu Wd (i 0) (i 1) (e + 1) he := by
  refine (stepTerm_apply e he hG hD x idx w Wg Wu Wd acc i).trans ?_
  exact (congrArg (· + Moe.expertOut x Wg Wu Wd ⟨e, he⟩ (i 0) (i 1) * Moe.weight idx w ⟨e, he⟩ (i 0)) hacc).trans
    (Moe.accum_succ x idx w Wg Wu Wd (i 0) (i 1) e he).symm

/-- The eight experts' steps in order, from zero. -/
def eightSteps (x : FVec Ideal S8192x1024 .f32) (idx : IVec S8192x2 32) (w : FVec Ideal S8192x2 .f32)
    (Wg Wu : FVec Ideal S8x2048x1024 .f32) (Wd : FVec Ideal S8x1024x2048 .f32) : FVec Ideal S8192x1024 .f32 :=
  (stepTerm 7 slices_S8x2048x1024_S1x2048x1024_7_0_0 slices_S8x1024x2048_S1x1024x2048_7_0_0 x idx w Wg Wu Wd
    (stepTerm 6 slices_S8x2048x1024_S1x2048x1024_6_0_0 slices_S8x1024x2048_S1x1024x2048_6_0_0 x idx w Wg Wu Wd
    (stepTerm 5 slices_S8x2048x1024_S1x2048x1024_5_0_0 slices_S8x1024x2048_S1x1024x2048_5_0_0 x idx w Wg Wu Wd
    (stepTerm 4 slices_S8x2048x1024_S1x2048x1024_4_0_0 slices_S8x1024x2048_S1x1024x2048_4_0_0 x idx w Wg Wu Wd
    (stepTerm 3 slices_S8x2048x1024_S1x2048x1024_3_0_0 slices_S8x1024x2048_S1x1024x2048_3_0_0 x idx w Wg Wu Wd
    (stepTerm 2 slices_S8x2048x1024_S1x2048x1024_2_0_0 slices_S8x1024x2048_S1x1024x2048_2_0_0 x idx w Wg Wu Wd
    (stepTerm 1 slices_S8x2048x1024_S1x2048x1024_1_0_0 slices_S8x1024x2048_S1x1024x2048_1_0_0 x idx w Wg Wu Wd
    (stepTerm 0 slices_S8x2048x1024_S1x2048x1024_0_0_0 slices_S8x1024x2048_S1x1024x2048_0_0_0 x idx w Wg Wu Wd
    zeroT))))))))

theorem eightSteps_eq_layer (x : FVec Ideal S8192x1024 .f32) (idx : IVec S8192x2 32) (w : FVec Ideal S8192x2 .f32)
    (Wg Wu : FVec Ideal S8x2048x1024 .f32) (Wd : FVec Ideal S8x1024x2048 .f32) :
    eightSteps x idx w Wg Wu Wd = Moe.layer x idx w Wg Wu Wd := by
  funext i
  unfold eightSteps
  show _ = Moe.accum x idx w Wg Wu Wd (i 0) (i 1) (7 + 1) (by decide)
  refine step_accum x idx w Wg Wu Wd 7 _ _ _ _ i ?_
  refine step_accum x idx w Wg Wu Wd 6 _ _ _ _ i ?_
  refine step_accum x idx w Wg Wu Wd 5 _ _ _ _ i ?_
  refine step_accum x idx w Wg Wu Wd 4 _ _ _ _ i ?_
  refine step_accum x idx w Wg Wu Wd 3 _ _ _ _ i ?_
  refine step_accum x idx w Wg Wu Wd 2 _ _ _ _ i ?_
  refine step_accum x idx w Wg Wu Wd 1 _ _ _ _ i ?_
  refine step_accum x idx w Wg Wu Wd 0 _ _ _ _ i ?_
  exact zeroT_apply i

/-- THE REFERENCE'S RESULT IS THE LAYER of its six arguments. The program's composed term is, literally, the eight steps
    from zero (the side conditions it cites are propositions, and the word `k#32` is `BitVec.ofNat 32 k`). -/
theorem result_eq (m : (ℓ : Loc nD τ sig) → Buf (Elt Ideal) ℓ) (c : Dev nD) :
    Cert.ReferenceIdeal.ValueP.res_main_v176 (F := Ideal) m c
      = Moe.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (rfl : Cert.ReferenceIdeal.ValueP.res_main_v176 (F := Ideal) m c = eightSteps (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))).trans
    (eightSteps_eq_layer _ _ _ _ _ _)

end Cert.ReferenceIdeal.RefValue

end
-- ==== Proof.LibPayIdx.lean ====
/-
  A kernel body's layout and contraction operations READ AT AN INDEX GIVEN BY COORDINATES, at the ideal values (floats are
  extended reals): the operations a body of the shape "flatten the two leading axes, multiply on the matrix unit into a zero
  accumulator, unflatten, normalise per row" meets beside the pointwise ones. Every lemma is general in the extents.
  • Reshapes: `[a, b, k]` to `[m, k]` and back (row `p·b + q`), `[a, b]` to `[a, b, 1]`.
  • Broadcasts to `[a, b, n]`: of one row `[1, 1, n]`, of one slab `[1, b, n]`, of one column `[1, b, 1]`.
  • A matrix product `[m, k] × [k, n]` into the zero accumulator: the sum over the contracted coordinate; and the same
    between the two reshapes, read at `(p, q, c)`.
  • A sum over one axis from the zero accumulator: over the last axis of `[a, b, n]`, over the first of `[a, b, 1]`.
-/
import Idealize.ShloMosaic.Lib.ValueLayout
import Idealize.ShloMosaic.PureOps.Ideal.Laws

noncomputable section

open scoped BigOperators

namespace Cert.KernelIdeal.Hand

open Idealize.ShloMosaic Idealize.ShloMosaic.ValueIdx

variable {α : Type}

/-! ## Reshapes -/

/-- An `[a, b, k]` array cast to `[m, k]` reads, at row `i = p·b + q` and column `c`, the operand at `(p, q, c)`. -/
theorem shapeCast_abk_mk_apply {a b k m : ℕ} (x : (⟨3, ![a, b, k]⟩ : Shape).Idx → α)
    (h : (⟨3, ![a, b, k]⟩ : Shape).ShapeCasts ⟨2, ![m, k]⟩) (p : Fin a) (q : Fin b) (c : Fin k) (i : Fin m)
    (hi : i.val = p.val * b + q.val) :
    shapeCast ⟨2, ![m, k]⟩ x h (ix2 i c) = x (ix3 p q c) :=
  shapeCast_apply x h _ _ (by
    rw [Shape.rowMajor_val_three, Shape.rowMajor_val_two]
    show (p.val * b + q.val) * k + c.val = i.val * k + c.val
    rw [hi])

/-- An `[m, k]` array cast to `[a, b, k]` reads, at `(p, q, c)`, the operand at row `i = p·b + q` and column `c`. -/
theorem shapeCast_mk_abk_apply {a b k m : ℕ} (x : (⟨2, ![m, k]⟩ : Shape).Idx → α)
    (h : (⟨2, ![m, k]⟩ : Shape).ShapeCasts ⟨3, ![a, b, k]⟩) (p : Fin a) (q : Fin b) (c : Fin k) (i : Fin m)
    (hi : i.val = p.val * b + q.val) :
    shapeCast ⟨3, ![a, b, k]⟩ x h (ix3 p q c) = x (ix2 i c) :=
  shapeCast_apply x h _ _ (by
    rw [Shape.rowMajor_val_two, Shape.rowMajor_val_three]
    show i.val * k + c.val = (p.val * b + q.val) * k + c.val
    rw [hi])

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-! ## Broadcasts to `[a, b, n]` -/

/-- A `[1, 1, n]` array broadcast to `[a, b, n]` reads, at `(p, q, c)`, the operand's one row at `c`. -/
theorem broadcastTo_11c_abc_apply {a b n : ℕ} (v : (⟨3, ![1, 1, n]⟩ : Shape).Idx → α)
    (h : (⟨3, ![1, 1, n]⟩ : Shape).Broadcasts ⟨3, ![a, b, n]⟩) (p : Fin a) (q : Fin b) (c : Fin n) :
    broadcastTo ⟨3, ![a, b, n]⟩ v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ =>
    show c.val = if n = 1 then 0 else c.val
    split
    · have := c.isLt; omega
    · rfl

/-- A `[1, b, n]` array broadcast to `[a, b, n]` reads, at `(p, q, c)`, the operand's one slab at `(q, c)`. -/
theorem broadcastTo_1bc_abc_apply {a b n : ℕ} (v : (⟨3, ![1, b, n]⟩ : Shape).Idx → α)
    (h : (⟨3, ![1, b, n]⟩ : Shape).Broadcasts ⟨3, ![a, b, n]⟩) (p : Fin a) (q : Fin b) (c : Fin n) :
    broadcastTo ⟨3, ![a, b, n]⟩ v h (ix3 p q c) = v (ix3 (0 : Fin 1) q c) := by
  refine broadcastTo_apply v h (ix3 p q c) (ix3 (0 : Fin 1) q c) fun ax => ?_
  match ax with
  | ⟨0, _⟩ => rfl
  | ⟨1, _⟩ =>
    show q.val = if b = 1 then 0 else q.val
    split
    · have := q.isLt; omega
    · rfl
  | ⟨2, _⟩ =>
    show c.val = if n = 1 then 0 else c.val
    split
    · have := c.isLt; omega
    · rfl

/-- A `[1, b, 1]` array broadcast to `[a, b, n]` reads, at `(p, q, c)`, the operand's one column at `q`. -/
theorem broadcastTo_1b1_abc_apply {a b n : ℕ} (v : (⟨3, ![1, b, 1]⟩ : Shape).Idx → α)
    (h : (⟨3, ![1, b, 1]⟩ : Shape).Broadcasts ⟨3, ![a, b, n]⟩) (p : Fin a) (q : Fin b) (c : Fin n) :
    broadcastTo ⟨3, ![a, b, n]⟩ v h (ix3 p q c) = v (ix3 (0 : Fin 1) q (0 : Fin 1)) := by
  refine broadcastTo_apply v h (ix3 p q c) (ix3 (0 : Fin 1) q (0 : Fin 1)) fun ax => ?_
  match ax with
  | ⟨0, _⟩ => rfl
  | ⟨1, _⟩ =>
    show q.val = if b = 1 then 0 else q.val
    split
    · have := q.isLt; omega
    · rfl
  | ⟨2, _⟩ => rfl

/-! ## A matrix product into the zero accumulator -/

/-- The product of an `m × k` by a `k × n` matrix on the matrix unit, accumulated into the zero splat, read at `(i, c)`: the
    sum over the contracted coordinate of the products of the entries. `w` is the dimension numbers' well-formedness, which a
    program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (i : Fin m) (c : Fin n) :
    matmul (⟨[1], [0], [0], [1], [], [], w⟩ : DotDims _ _ _) prec A B (constant (F := Ideal) ⟨2, ![m, n]⟩ .f32 0x00000000#32) (ix2 i c)
      = ∑ j : Fin k, A (ix2 i j) * B (ix2 j c) := by
  show FloatOps.matmul _ prec A B (constant (F := Ideal) ⟨2, ![m, n]⟩ .f32 0x00000000#32) (ix2 i c) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun j _ => ?_
  have c2 := contrEquiv1_symm_val
    (⟨[1], [0], [0], [1], [], [], w⟩ : DotDims ⟨2, ![m, k]⟩ ⟨2, ![k, n]⟩ ⟨2, ![m, n]⟩) k rfl rfl j
  have l2 : (⟨[1], [0], [0], [1], [], [], w⟩ : DotDims ⟨2, ![m, k]⟩ ⟨2, ![k, n]⟩ ⟨2, ![m, n]⟩).lhsIdx (ix2 i c)
      ((contrEquiv1 _ k rfl rfl).symm j) = ix2 i j := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 i c)
      ((contrEquiv1 _ k rfl rfl).symm j) = ix2 j c := by
    funext ax; apply Fin.ext
    match ax with
    | ⟨0, _⟩ => simp [DotDims.rhsIdx]; exact c2
    | ⟨1, _⟩ => simp [DotDims.rhsIdx]; rfl
  rw [l2, r2]

/-- The row-block product: an `[a, b, k]` array flattened to `[m, k]` (row `p·b + q`), multiplied by a `[k, n]` matrix into the
    zero accumulator, and unflattened to `[a, b, n]`, read at `(p, q, c)`: the sum over the contracted coordinate of the
    products of the entries of row `(p, q)` and column `c`. -/
theorem flat_matmul_apply {a b k n m : ℕ} {φ₁ φ₂ : FTy}
    (w : DotDims.WF ⟨2, ![m, k]⟩ ⟨2, ![k, n]⟩ ⟨2, ![m, n]⟩ [1] [0] [0] [1] [] [])
    (prec : Option ContractPrecision) (X : FVec Ideal ⟨3, ![a, b, k]⟩ φ₁) (W : FVec Ideal ⟨2, ![k, n]⟩ φ₂)
    (h1 : (⟨3, ![a, b, k]⟩ : Shape).ShapeCasts ⟨2, ![m, k]⟩) (h2 : (⟨2, ![m, n]⟩ : Shape).ShapeCasts ⟨3, ![a, b, n]⟩)
    (p : Fin a) (q : Fin b) (c : Fin n) (hlt : p.val * b + q.val < m) :
    shapeCast ⟨3, ![a, b, n]⟩
        (matmul (⟨[1], [0], [0], [1], [], [], w⟩ : DotDims _ _ _) prec (shapeCast ⟨2, ![m, k]⟩ X h1) W
          (constant (F := Ideal) ⟨2, ![m, n]⟩ .f32 0x00000000#32)) h2 (ix3 p q c)
      = ∑ j : Fin k, X (ix3 p q j) * W (ix2 j c) := by
  refine (shapeCast_mk_abk_apply _ h2 p q c ⟨_, hlt⟩ rfl).trans ?_
  refine (matmul_plain_zero_apply w prec _ W ⟨_, hlt⟩ c).trans ?_
  exact Finset.sum_congr rfl fun j _ =>
    congrArg (· * W (ix2 j c)) (shapeCast_abk_mk_apply X h1 p q j ⟨_, hlt⟩ rfl)

/-! ## A sum over one axis from the zero accumulator -/

/-- The sum over the LAST axis of an `[a, b, n]` array from the zero accumulator, read at `(p, q)`: the sum over that axis's
    coordinates. The accumulator's word is zero, which is the hypothesis as a printed program carries it. -/
theorem multiReduction_add_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ c : Fin n, src (ix3 p q c) := by
  refine (Ideal.multiReduction_add_single src 0x00000000#32 h hφ hacc (ix2 p q)).trans ?_
  refine Finset.sum_congr rfl fun c _ => congrArg src ?_
  funext ax; apply Fin.ext
  match ax with
  | ⟨0, _⟩ => rfl
  | ⟨1, _⟩ => rfl
  | ⟨2, _⟩ => rfl

/-- The sum over the FIRST axis of an `[a, b, 1]` array from the zero accumulator, read at `(q, u)`: the sum over that axis's
    coordinates. -/
theorem multiReduction_add_first_apply {a b : ℕ} (src : FVec Ideal ⟨3, ![a, b, 1]⟩ .f32)
    (h : (⟨3, ![a, b, 1]⟩ : Shape).Reduces [0] ⟨2, ![b, 1]⟩) (hφ : FKind.Formats .f32)
    (hacc : (0x00000000#32 : BitVec 32) = 0x00000000#32) (q : Fin b) (u : Fin 1) :
    multiReduction .add [0] ⟨2, ![b, 1]⟩ src 0x00000000#32 h hφ hacc (ix2 q u) = ∑ p : Fin a, src (ix3 p q u) := by
  refine (Ideal.multiReduction_add_single src 0x00000000#32 h hφ hacc (ix2 q u)).trans ?_
  refine Finset.sum_congr rfl fun p _ => congrArg src ?_
  funext ax; apply Fin.ext
  match ax with
  | ⟨0, _⟩ => rfl
  | ⟨1, _⟩ => rfl
  | ⟨2, _⟩ => rfl

end Cert.KernelIdeal.Hand

end
-- ==== Proof.KBody.lean ====
/-
  The kernel body's arithmetic at one grid point, read at an index of the [256, 1024] accumulator tile, over the
  extended reals. At point `(tile, e)` the body holds a tile `x0` of 256 tokens, expert `e`'s three weight blocks
  `x1, x2` ([1, 1024, 2048], already transposed) and `x3` ([1, 2048, 1024]), the tile's [256, 8] table `x4` of combined
  routing weights, and the accumulator `acc`. It leaves
     acc (r, j) + (∑ h, (g · logistic g · u)(r, h) · x3 (0, h, j)) · (∑ e', (x4 (r, e') if e' = e else 0)),
  where g (r, h) = ∑ d, x0 (r, d) · x1 (0, d, h) and u likewise with x2: two block products into a zero accumulator,
  the gate, a third block product, the table's column `e` picked by a masked sum along the table's row, and one
  multiply-add. Changes of float format are the identity here.
-/
import proofs.«142969_j18502719111701_1_alg».proof.Proof.Gen.KernelIdeal.Skeleton
import proofs.«142969_j18502719111701_1_alg».proof.Proof.LibPayIdx
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Cert.KernelIdeal.Hand Idealize.ShloMosaic Idealize.ShloMosaic.ValueIdx

/-- A tile's projection through one transposed weight block: row `r` of the tile against column `h` of the block. -/
def up (x0 : Vec Ideal S256x1024 .bf16) (x1 : Vec Ideal S1x1024x2048 .bf16) (r : Fin 256) (h : Fin 2048) : EReal :=
  ∑ d : Fin 1024, x0 (ix2 r d) * x1 (ix3 (0 : Fin 1) d h)

/-- The gated hidden value of row `r` at `h`. -/
def hid (x0 : Vec Ideal S256x1024 .bf16) (x1 x2 : Vec Ideal S1x1024x2048 .bf16) (r : Fin 256) (h : Fin 2048) : EReal :=
  up x0 x1 r h * Ideal.logistic (up x0 x1 r h) * up x0 x2 r h

/-- The expert's output for row `r` at column `j`. -/
def outp (x0 : Vec Ideal S256x1024 .bf16) (x1 x2 : Vec Ideal S1x1024x2048 .bf16) (x3 : Vec Ideal S1x2048x1024 .bf16)
    (r : Fin 256) (j : Fin 1024) : EReal :=
  ∑ h : Fin 2048, hid x0 x1 x2 r h * x3 (ix3 (0 : Fin 1) h j)

/-- Column `a` of the table's row `r`, as the masked sum along the row. -/
def pick (a : BitVec 32) (x4 : Vec Ideal S256x8 .f32) (r : Fin 256) : EReal :=
  ∑ e' : Fin 8, Scalar.select (IntOp.cmpi .eq (BitVec.ofNat 32 e'.val) a) (x4 (ix2 r e')) 0

/-- The first two block products: the tile against a weight block viewed as a matrix. -/
theorem up_apply (x0 : Vec Ideal S256x1024 .bf16) (x1 : Vec Ideal S1x1024x2048 .bf16) (r : Fin 256) (h : Fin 2048) :
    matmul dot_S256x1024_S1024x2048_S256x2048_1_0_0_1_n_n none (shapeCast S256x1024 x0 shapeCasts_S256x1024_S256x1024 : FVec Ideal S256x1024 .bf16)
        (shapeCast S1024x2048 x1 shapeCasts_S1x1024x2048_S1024x2048 : FVec Ideal S1024x2048 .bf16) (constant (F := Ideal) S256x2048 .f32 0x00000000#32) (ix2 r h)
      = up x0 x1 r h := by
  refine (matmul_plain_zero_apply dot_S256x1024_S1024x2048_S256x2048_1_0_0_1_n_n_wf none _ _ r h).trans ?_
  refine Finset.sum_congr rfl fun d _ => ?_
  rw [shapeCast_self, shapeCast_1ab_ab_apply]

/-- The third block product, of any [256, 2048] left factor. -/
theorem down_apply (A : FVec Ideal S256x2048 .bf16) (x3 : Vec Ideal S1x2048x1024 .bf16) (r : Fin 256) (j : Fin 1024) :
    matmul dot_S256x2048_S2048x1024_S256x1024_1_0_0_1_n_n none A
        (shapeCast S2048x1024 x3 shapeCasts_S1x2048x1024_S2048x1024 : FVec Ideal S2048x1024 .bf16) (constant (F := Ideal) S256x1024 .f32 0x00000000#32) (ix2 r j)
      = ∑ h : Fin 2048, A (ix2 r h) * x3 (ix3 (0 : Fin 1) h j) := by
  refine (matmul_plain_zero_apply dot_S256x2048_S2048x1024_S256x1024_1_0_0_1_n_n_wf none _ _ r j).trans ?_
  refine Finset.sum_congr rfl fun h _ => ?_
  rw [shapeCast_1ab_ab_apply]

/-- The masked sum along the table's row, kept as a column and spread over the tile's columns. -/
theorem pick_apply (a : BitVec 32) (x4 : Vec Ideal S256x8 .f32) (r : Fin 256) (j : Fin 1024) :
    broadcastTo S256x1024
        (shapeCast S256x1
          (multiReduction .add [1] S256
            (select (cmpi .eq (iota .tc S256x8 32 [1] iota_S256x8_d1_w32) (broadcast S256x8 a))
              (shapeCast S256x8 x4 shapeCasts_S256x8_S256x8) (broadcast S256x8 (Scalar.ofBits (F := Ideal) .f32 0x00000000#32)))
            0x00000000#32 reduces_S256x8_S256 (.inl rfl) rfl)
          shapeCasts_S256_S256x1)
        broadcasts_S256x1_S256x1024 (ix2 r j)
      = pick a x4 r := by
  refine (broadcastTo_apply _ broadcasts_S256x1_S256x1024 (ix2 r j) (ix2 r (0 : Fin 1)) fun ax => ?_).trans ?_
  · match ax with
    | ⟨0, _⟩ => rfl
    | ⟨1, _⟩ => rfl
  refine (shapeCast_apply _ shapeCasts_S256_S256x1 (ix2 r (0 : Fin 1)) (ix1 r) (by
    rw [Shape.rowMajor_val_one, Shape.rowMajor_val_two]
    show r.val = r.val * 1 + 0
    omega)).trans ?_
  refine (Ideal.multiReduction_add_single _ 0x00000000#32 reduces_S256x8_S256 (.inl rfl) rfl (ix1 r)).trans ?_
  refine Finset.sum_congr rfl fun (e' : Fin 8) _ => ?_
  have hl : reduces_S256x8_S256.lift (ix1 r) e' = (ix2 r e' : S256x8.Idx) := by
    funext ax; apply Fin.ext
    match ax with
    | ⟨0, _⟩ => rfl
    | ⟨1, _⟩ => rfl
  refine (congrArg _ hl).trans ?_
  show Scalar.select (IntOp.cmpi .eq (iota .tc S256x8 32 [1] iota_S256x8_d1_w32 (ix2 r e')) a)
      (shapeCast S256x8 x4 shapeCasts_S256x8_S256x8 (ix2 r e')) (Ideal.ofBits .f32 0x00000000#32) = _
  rw [iota_single_apply, Ideal.ofBits_zero_f32, shapeCast_self]

/-- THE BODY AT AN INDEX: what the multiply-add leaves at `(r, j)`. -/
theorem pay3_apply (i : grid0.Coords) (x0 : Vec Ideal S256x1024 .bf16) (x1 x2 : Vec Ideal S1x1024x2048 .bf16)
    (x3 : Vec Ideal S1x2048x1024 .bf16) (x4 : Vec Ideal S256x8 .f32) (acc : Vec Ideal S256x1024 .f32)
    (r : Fin 256) (j : Fin 1024) :
    k0_pay3 (F := Ideal) i x0 x1 x2 x3 x4 acc (ix2 r j)
      = acc (ix2 r j) + outp x0 x1 x2 x3 r j * pick (BitVec.ofNat 32 (i 1).val) x4 r := by
  unfold k0_pay3
  refine congrArg₂ (· + ·) rfl (congrArg₂ (· * ·) ?_ (pick_apply _ x4 r j))
  refine (down_apply _ x3 r j).trans ?_
  refine Finset.sum_congr rfl fun h _ => congrArg (· * x3 (ix3 (0 : Fin 1) h j)) ?_
  show _ * Ideal.logistic _ * _ = _
  unfold hid
  exact congrArg₂ (· * ·) (congrArg₂ (· * ·) (up_apply x0 x1 r h) (congrArg Ideal.logistic (up_apply x0 x1 r h))) (up_apply x0 x2 r h)

end Cert.KernelIdeal.Body

end
-- ==== Proof.KPieces.lean ====
/-
  What the kernel body leaves in its accumulator (and, at a tile's last expert, in the output block), as values.
  At every grid point the body stores, over the whole [256, 1024] accumulator, the multiply-add of what it loaded:
  the point's five input blocks and the accumulator's contents — which at a tile's first expert are the zeros the body
  has just stored there, and otherwise what the point before left. At a tile's last expert it then copies the
  accumulator into the output block. Every store covers its buffer and every load reads a whole buffer, so each
  buffer's final contents are the last store's value.
-/
import proofs.«142969_j18502719111701_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S256x1024 .bf16) (harg2 : arg2.IsWhole)
  (arg3 : Memref sig .tc .vmem S1x1024x2048 .bf16) (harg3 : arg3.IsWhole) (arg4 : Memref sig .tc .vmem S1x1024x2048 .bf16) (harg4 : arg4.IsWhole)
  (arg5 : Memref sig .tc .vmem S1x2048x1024 .bf16) (harg5 : arg5.IsWhole) (arg6 : Memref sig .tc .vmem S256x8 .f32) (harg6 : arg6.IsWhole)
  (arg7 : Memref sig .tc .vmem S256x1024 .f32) (harg7 : arg7.IsWhole) (arg8 : Memref sig .tc .vmem S256x1024 .f32) (harg8 : arg8.IsWhole)
  (x0 : Vec F S256x1024 .bf16) (x1 x2 : Vec F S1x1024x2048 .bf16) (x3 : Vec F S1x2048x1024 .bf16) (x4 : Vec F S256x8 .f32)

/-- A point that is neither a tile's first nor its last expert: the accumulator ends at the multiply-add over what
    the point before left (`xs0`). -/
theorem scratch_B (hc0 : ¬cond0_0 i) (hc1 : ¬cond0_1 i) (xs0 : Vec F S256x1024 .f32) :
    sout0_B_0 c i arg2 harg2 arg3 harg3 arg4 harg4 arg5 harg5 arg6 harg6 arg7 harg7 arg8 harg8 hc0 hc1 x0 x1 x2 x3 x4 xs0 = k0_pay3 i x0 x1 x2 x3 x4 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  first
    | rw [View.canon_unit_zero hz2]
    | rw [View.canon_cons_unit_zero (S := S256x1024) hz2]
  try unfold k0_pay1
  simp only [View.readAt_eq_ld, harg2.read_unread, harg3.read_unread, harg4.read_unread, harg5.read_unread, harg6.read_unread,
    harg7.read_unread, harg8.read_unread, View.ld_unit_zero (S := S256x1024) hz2, View.ld_unit_zero (S := S1x1024x2048) hz3,
    View.ld_unit_zero (S := S1x2048x1024) hz3, View.ld_unit_zero (S := S256x8) hz2, shapeCast_self,
    View.readCov_unit_zero (S := S256x1024) _ hz2]

/-- A tile's last expert: the accumulator likewise, -/
theorem scratch_C (hc0 : ¬cond0_0 i) (hc1 : cond0_1 i) (xs0 : Vec F S256x1024 .f32) :
    sout0_C_0 c i arg2 harg2 arg3 harg3 arg4 harg4 arg5 harg5 arg6 harg6 arg7 harg7 arg8 harg8 hc0 hc1 x0 x1 x2 x3 x4 xs0 = k0_pay3 i x0 x1 x2 x3 x4 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  first
    | rw [View.canon_unit_zero hz2]
    | rw [View.canon_cons_unit_zero (S := S256x1024) hz2]
  try unfold k0_pay1
  simp only [View.readAt_eq_ld, harg2.read_unread, harg3.read_unread, harg4.read_unread, harg5.read_unread, harg6.read_unread,
    harg7.read_unread, harg8.read_unread, View.ld_unit_zero (S := S256x1024) hz2, View.ld_unit_zero (S := S1x1024x2048) hz3,
    View.ld_unit_zero (S := S1x2048x1024) hz3, View.ld_unit_zero (S := S256x8) hz2, shapeCast_self,
    View.readCov_unit_zero (S := S256x1024) _ hz2]

/-- and the output block is the accumulator's new contents, copied. -/
theorem out_C (hc0 : ¬cond0_0 i) (hc1 : cond0_1 i) (xs0 : Vec F S256x1024 .f32) :
    out0_C_5 c i arg2 harg2 arg3 harg3 arg4 harg4 arg5 harg5 arg6 harg6 arg7 harg7 arg8 harg8 hc0 hc1 x0 x1 x2 x3 x4 xs0 = k0_pay3 i x0 x1 x2 x3 x4 xs0 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  first
    | rw [View.canon_unit_zero hz2]
    | rw [View.canon_cons_unit_zero (S := S256x1024) hz2]
  try unfold k0_pay1
  simp only [View.readAt_eq_ld, harg2.read_unread, harg3.read_unread, harg4.read_unread, harg5.read_unread, harg6.read_unread,
    harg7.read_unread, harg8.read_unread, View.ld_unit_zero (S := S256x1024) hz2, View.ld_unit_zero (S := S1x1024x2048) hz3,
    View.ld_unit_zero (S := S1x2048x1024) hz3, View.ld_unit_zero (S := S256x8) hz2, shapeCast_self,
    View.readCov_unit_zero (S := S256x1024) _ hz2]

/-- A tile's first expert: the accumulator is first zeroed, so the multiply-add is over the zero tile. -/
theorem scratch_A (hc0 : cond0_0 i) (hc1 : ¬cond0_1 i) :
    sout0_A_0 c i arg2 harg2 arg3 harg3 arg4 harg4 arg5 harg5 arg6 harg6 arg7 harg7 arg8 harg8 hc0 hc1 x0 x1 x2 x3 x4 = k0_pay3 i x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  first
    | rw [View.canon_unit_zero hz2]
    | rw [View.canon_cons_unit_zero (S := S256x1024) hz2]
  try unfold k0_pay1
  simp only [View.readAt_eq_ld, harg2.read_unread, harg3.read_unread, harg4.read_unread, harg5.read_unread, harg6.read_unread,
    harg7.read_unread, harg8.read_unread, View.ld_unit_zero (S := S256x1024) hz2, View.ld_unit_zero (S := S1x1024x2048) hz3,
    View.ld_unit_zero (S := S1x2048x1024) hz3, View.ld_unit_zero (S := S256x8) hz2, shapeCast_self,
    View.readCov_unit_zero (S := S256x1024) _ hz2]

end Cert.KernelIdeal.Pieces

end
-- ==== Proof.KBlocks.lean ====
/-
  The arrays the region finds, and its windows' blocks, read at an index, over the extended reals.
  Before the region the host casts the activations to bf16 (the identity here), transposes each expert's three weight
  matrices (`(e, h, d) ↦ (e, d, h)`) and casts them, and builds the [8192, 8] table of combined routing weights:
  entry `(t, e')` is the sum over the two slots `k` of the slot's weight where the slot names expert `e'`, from zero.
  Grid point `n` is tile `n / 8`, expert `n % 8`: its blocks are rows `256·(n/8) …` of the activations and of the table,
  and slab `n % 8` of each weight array.
-/
import proofs.«142969_j18502719111701_1_alg».proof.Proof.Gen.KernelIdeal.Frame
import Idealize.ShloMosaic.Lib.Pipeline.Value
import Idealize.ShloMosaic.Lib.ValueIdx
import Idealize.ShloMosaic.Lib.ValueLayout
import Idealize.ShloMosaic.Lib.IdealHost
import Idealize.ShloMosaic.Lib.StableHlo.Run
import Idealize.ShloMosaic.PureOps.Ideal.Laws

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The table of combined routing weights as the host builds it from the slots' expert numbers and weights. -/
def combTable (idx : IVec S8192x2 32) (w : FVec Ideal S8192x2 .f32) : FVec Ideal S8192x8 .f32 :=
  Host.reduceAdd
    (select
      (cmpi .eq (broadcastInDim S8192x2x8 ![0, 1, 2] bcast_S8192x2x1_S8192x2x8_0_1_2 (broadcastInDim S8192x2x1 ![0, 1] bcast_S8192x2_S8192x2x1_0_1 idx))
        (broadcastInDim S8192x2x8 ![0, 1, 2] bcast_S1x1x8_S8192x2x8_0_1_2 (broadcastInDim S1x1x8 ![2] bcast_S8_S1x1x8_2 (iotaInDim S8 32 0))))
      (broadcastInDim S8192x2x8 ![0, 1, 2] bcast_S8192x2x1_S8192x2x8_0_1_2 (broadcastInDim S8192x2x1 ![0, 1] bcast_S8192x2_S8192x2x1_0_1 w))
      (broadcastInDim S8192x2x8 ![] bcast_S_S8192x2x8 (id (constant (F := Ideal) S_ .f32 0x00000000#32))))
    (constant (F := Ideal) S_ .f32 0x00000000#32) reducesTo_S8192x2x8_S8192x8_d1 h_S_

/-- The table at `(t, e')`: the slots' weights where the slot names `e'`, summed from zero. -/
theorem combTable_apply (idx : IVec S8192x2 32) (w : FVec Ideal S8192x2 .f32) (t : Fin 8192) (e' : Fin 8) :
    combTable idx w (ix2 t e')
      = 0 + ∑ k : Fin 2, Scalar.select (IntOp.cmpi .eq (idx (ix2 t k)) (BitVec.ofNat 32 e'.val)) (w (ix2 t k)) 0 := by
  unfold combTable
  rw [hostReduceAdd_apply, Ideal.hostReduceAdd_single reducesTo_S8192x2x8_S8192x8_d1 (by decide)]
  refine congrArg₂ (· + ·) (by rw [constant_apply, Ideal.ofBits_zero_f32]) (Finset.sum_congr rfl fun (k : Fin 2) _ => ?_)
  have hl : (by decide : S8192x2x8.Reduces [1] S8192x8).lift (ix2 t e') k = (ix3 t k e' : S8192x2x8.Idx) := by
    funext ax; apply Fin.ext
    match ax with
    | ⟨0, _⟩ => rfl
    | ⟨1, _⟩ => rfl
    | ⟨2, _⟩ => rfl
  refine (congrArg _ hl).trans ?_
  have b1 : ∀ (v : S8192x2.Idx → BitVec 32), broadcastInDim S8192x2x8 ![0, 1, 2] bcast_S8192x2x1_S8192x2x8_0_1_2 (broadcastInDim S8192x2x1 ![0, 1] bcast_S8192x2_S8192x2x1_0_1 v) (ix3 t k e') = v (ix2 t k) := fun v => by
    refine (broadcastInDim_apply _ bcast_S8192x2x1_S8192x2x8_0_1_2 _ (ix3 t k e') (ix3 t k (0 : Fin 1)) fun ax => ?_).trans ?_
    · match ax with
      | ⟨0, _⟩ => rfl
      | ⟨1, _⟩ => rfl
      | ⟨2, _⟩ => rfl
    refine broadcastInDim_apply _ bcast_S8192x2_S8192x2x1_0_1 _ (ix3 t k (0 : Fin 1)) (ix2 t k) fun ax => ?_
    match ax with
    | ⟨0, _⟩ => rfl
    | ⟨1, _⟩ => rfl
  have b2 : ∀ (v : S8192x2.Idx → EReal), broadcastInDim S8192x2x8 ![0, 1, 2] bcast_S8192x2x1_S8192x2x8_0_1_2 (broadcastInDim S8192x2x1 ![0, 1] bcast_S8192x2_S8192x2x1_0_1 v) (ix3 t k e') = v (ix2 t k) := fun v => by
    refine (broadcastInDim_apply _ bcast_S8192x2x1_S8192x2x8_0_1_2 _ (ix3 t k e') (ix3 t k (0 : Fin 1)) fun ax => ?_).trans ?_
    · match ax with
      | ⟨0, _⟩ => rfl
      | ⟨1, _⟩ => rfl
      | ⟨2, _⟩ => rfl
    refine broadcastInDim_apply _ bcast_S8192x2_S8192x2x1_0_1 _ (ix3 t k (0 : Fin 1)) (ix2 t k) fun ax => ?_
    match ax with
    | ⟨0, _⟩ => rfl
    | ⟨1, _⟩ => rfl
  have b3 : broadcastInDim S8192x2x8 ![0, 1, 2] bcast_S1x1x8_S8192x2x8_0_1_2 (broadcastInDim S1x1x8 ![2] bcast_S8_S1x1x8_2 (iotaInDim S8 32 0)) (ix3 t k e') = BitVec.ofNat 32 e'.val := by
    refine (broadcastInDim_apply _ bcast_S1x1x8_S8192x2x8_0_1_2 _ (ix3 t k e') (ix3 (0 : Fin 1) (0 : Fin 1) e') fun ax => ?_).trans ?_
    · match ax with
      | ⟨0, _⟩ => rfl
      | ⟨1, _⟩ => rfl
      | ⟨2, _⟩ => rfl
    refine (broadcastInDim_apply _ bcast_S8_S1x1x8_2 _ (ix3 (0 : Fin 1) (0 : Fin 1) e') (ix1 e') fun ax => ?_).trans ?_
    · match ax with
      | ⟨0, _⟩ => rfl
    exact iotaInDim_apply 32 0 (ix1 e')
  show Scalar.select (IntOp.cmpi .eq
      (broadcastInDim S8192x2x8 ![0, 1, 2] bcast_S8192x2x1_S8192x2x8_0_1_2 (broadcastInDim S8192x2x1 ![0, 1] bcast_S8192x2_S8192x2x1_0_1 idx) (ix3 t k e'))
      (broadcastInDim S8192x2x8 ![0, 1, 2] bcast_S1x1x8_S8192x2x8_0_1_2 (broadcastInDim S1x1x8 ![2] bcast_S8_S1x1x8_2 (iotaInDim S8 32 0)) (ix3 t k e')))
      (broadcastInDim S8192x2x8 ![0, 1, 2] bcast_S8192x2x1_S8192x2x8_0_1_2 (broadcastInDim S8192x2x1 ![0, 1] bcast_S8192x2_S8192x2x1_0_1 w) (ix3 t k e'))
      (broadcastInDim S8192x2x8 ![] bcast_S_S8192x2x8 (id (constant (F := Ideal) S_ .f32 0x00000000#32)) (ix3 t k e')) = _
  rw [b1 idx, b2 w, b3, broadcastInDim_scalar_apply]
  show Scalar.select _ _ (Ideal.ofBits .f32 0x00000000#32) = _
  rw [Ideal.ofBits_zero_f32]

/-! ## The arrays as the region finds them -/

theorem V_act (c : Dev nD) :
    V m c main_v9 = (truncf (F := Ideal) .bf16 (m ((c : Thread nD τ).loc main_arg0) : FVec Ideal S8192x1024 .f32) bitsLt_bf16_f32 : FVec Ideal S8192x1024 .bf16) := by
  dsimp only [V]
  simp only [hostOps0, hostOps0_1, hostOps0_2, List.flatten_cons, List.flatten_nil, List.append_nil, List.cons_append, List.nil_append]
  after_results <;> rfl

theorem V_gate (c : Dev nD) :
    V m c main_v11
      = (truncf (F := Ideal) .bf16 (transpose S8x1024x2048 [0, 2, 1] (m ((c : Thread nD τ).loc main_arg3) : FVec Ideal S8x2048x1024 .f32) transposes_S8x2048x1024_S8x1024x2048_0_2_1) bitsLt_bf16_f32 : FVec Ideal S8x1024x2048 .bf16) := by
  dsimp only [V]
  simp only [hostOps0, hostOps0_1, hostOps0_2, List.flatten_cons, List.flatten_nil, List.append_nil, List.cons_append, List.nil_append]
  after_results <;> rfl

theorem V_upw (c : Dev nD) :
    V m c main_v13
      = (truncf (F := Ideal) .bf16 (transpose S8x1024x2048 [0, 2, 1] (m ((c : Thread nD τ).loc main_arg4) : FVec Ideal S8x2048x1024 .f32) transposes_S8x2048x1024_S8x1024x2048_0_2_1) bitsLt_bf16_f32 : FVec Ideal S8x1024x2048 .bf16) := by
  dsimp only [V]
  simp only [hostOps0, hostOps0_1, hostOps0_2, List.flatten_cons, List.flatten_nil, List.append_nil, List.cons_append, List.nil_append]
  after_results <;> rfl

theorem V_down (c : Dev nD) :
    V m c main_v15
      = (truncf (F := Ideal) .bf16 (transpose S8x2048x1024 [0, 2, 1] (m ((c : Thread nD τ).loc main_arg5) : FVec Ideal S8x1024x2048 .f32) transposes_S8x1024x2048_S8x2048x1024_0_2_1) bitsLt_bf16_f32 : FVec Ideal S8x2048x1024 .bf16) := by
  dsimp only [V]
  simp only [hostOps0, hostOps0_1, hostOps0_2, List.flatten_cons, List.flatten_nil, List.append_nil, List.cons_append, List.nil_append]
  after_results <;> rfl

theorem V_comb (c : Dev nD) :
    V m c main_v8
      = (combTable (m ((c : Thread nD τ).loc main_arg1) : IVec S8192x2 32) (m ((c : Thread nD τ).loc main_arg2) : FVec Ideal S8192x2 .f32) : FVec Ideal S8192x8 .f32) := by
  dsimp only [V]
  simp only [hostOps0, hostOps0_1, hostOps0_2, List.flatten_cons, List.flatten_nil, List.append_nil, List.cons_append, List.nil_append]
  after_results <;> rfl

/-! ## The index maps over the grid -/

/-- Point `n` is tile `n / 8`, expert `n % 8`; the activations', the table's and the output's blocks move with the tile,
    the weight blocks with the expert. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 3) = t.val % 8 ∧ win0_3.index t (1 : Fin 3) = 0 ∧ win0_3.index t (2 : Fin 3) = 0
    ∧ win0_4.index t (0 : Fin 2) = t.val / 8 ∧ win0_4.index t (1 : Fin 2) = 0
    ∧ win0_5.index t (0 : Fin 2) = t.val / 8 ∧ win0_5.index t (1 : Fin 2) = 0
    ∧ (grid0.coords t (1 : Fin 2)).val = t.val % 8 :=
  (by decide +kernel : ∀ t : Fin grid0.N, _)

/-! ## The blocks at an index -/

/-- The activations' block at point `t`: rows `256·(t/8) + r`. -/
theorem blk_act (c : Dev nD) (t : Fin cfg0.N) (r : Fin 256) (d : Fin 1024) (hr : 256 * (t.val / 8) + r.val < 8192) :
    (iblk m c 0 t : Vec Ideal S256x1024 .bf16) (ix2 r d)
      = m ((c : Thread nD τ).loc main_arg0) (ix2 ⟨256 * (t.val / 8) + r.val, hr⟩ d) := by
  obtain ⟨e0, e1, -⟩ := idx_facts t
  unfold iblk
  rw [View.read_apply]
  show V m c main_v9 _ = _
  rw [V_act, truncf_apply]
  refine congrArg _ (funext fun a => Fin.ext ?_)
  match a with
  | ⟨0, _⟩ => show win0_0.index t (0 : Fin 2) * 256 + 1 * r.val = 256 * (t.val / 8) + r.val; rw [e0]; omega
  | ⟨1, _⟩ => show win0_0.index t (1 : Fin 2) * 1024 + 1 * d.val = d.val; rw [e1]; omega

/-- The gate weights' block at point `t`: expert `t % 8`, transposed. -/
theorem blk_gate (c : Dev nD) (t : Fin cfg0.N) (d : Fin 1024) (h : Fin 2048) (he : t.val % 8 < 8) :
    (iblk m c 1 t : Vec Ideal S1x1024x2048 .bf16) (ix3 (0 : Fin 1) d h)
      = m ((c : Thread nD τ).loc main_arg3) (ix3 ⟨t.val % 8, he⟩ h d) := by
  obtain ⟨-, -, e0, e1, e2, -⟩ := idx_facts t
  unfold iblk
  rw [View.read_apply]
  show V m c main_v11 _ = _
  rw [V_gate, truncf_apply]
  refine (transpose_apply _ _ transposes_S8x2048x1024_S8x1024x2048_0_2_1 _ (ix3 ⟨t.val % 8, he⟩ h d) fun b => ?_)
  match b with
  | ⟨0, _⟩ => show t.val % 8 = win0_1.index t (0 : Fin 3) * 1 + 1 * 0; rw [e0]; omega
  | ⟨1, _⟩ => show d.val = win0_1.index t (1 : Fin 3) * 1024 + 1 * d.val; rw [e1]; omega
  | ⟨2, _⟩ => show h.val = win0_1.index t (2 : Fin 3) * 2048 + 1 * h.val; rw [e2]; omega

/-- The up weights' block at point `t`: expert `t % 8`, transposed. -/
theorem blk_upw (c : Dev nD) (t : Fin cfg0.N) (d : Fin 1024) (h : Fin 2048) (he : t.val % 8 < 8) :
    (iblk m c 2 t : Vec Ideal S1x1024x2048 .bf16) (ix3 (0 : Fin 1) d h)
      = m ((c : Thread nD τ).loc main_arg4) (ix3 ⟨t.val % 8, he⟩ h d) := by
  obtain ⟨-, -, -, -, -, e0, e1, e2, -⟩ := idx_facts t
  unfold iblk
  rw [View.read_apply]
  show V m c main_v13 _ = _
  rw [V_upw, truncf_apply]
  refine (transpose_apply _ _ transposes_S8x2048x1024_S8x1024x2048_0_2_1 _ (ix3 ⟨t.val % 8, he⟩ h d) fun b => ?_)
  match b with
  | ⟨0, _⟩ => show t.val % 8 = win0_2.index t (0 : Fin 3) * 1 + 1 * 0; rw [e0]; omega
  | ⟨1, _⟩ => show d.val = win0_2.index t (1 : Fin 3) * 1024 + 1 * d.val; rw [e1]; omega
  | ⟨2, _⟩ => show h.val = win0_2.index t (2 : Fin 3) * 2048 + 1 * h.val; rw [e2]; omega

/-- The down weights' block at point `t`: expert `t % 8`, transposed. -/
theorem blk_down (c : Dev nD) (t : Fin cfg0.N) (h : Fin 2048) (j : Fin 1024) (he : t.val % 8 < 8) :
    (iblk m c 3 t : Vec Ideal S1x2048x1024 .bf16) (ix3 (0 : Fin 1) h j)
      = m ((c : Thread nD τ).loc main_arg5) (ix3 ⟨t.val % 8, he⟩ j h) := by
  obtain ⟨-, -, -, -, -, -, -, -, e0, e1, e2, -⟩ := idx_facts t
  unfold iblk
  rw [View.read_apply]
  show V m c main_v15 _ = _
  rw [V_down, truncf_apply]
  refine (transpose_apply _ _ transposes_S8x1024x2048_S8x2048x1024_0_2_1 _ (ix3 ⟨t.val % 8, he⟩ j h) fun b => ?_)
  match b with
  | ⟨0, _⟩ => show t.val % 8 = win0_3.index t (0 : Fin 3) * 1 + 1 * 0; rw [e0]; omega
  | ⟨1, _⟩ => show h.val = win0_3.index t (1 : Fin 3) * 2048 + 1 * h.val; rw [e1]; omega
  | ⟨2, _⟩ => show j.val = win0_3.index t (2 : Fin 3) * 1024 + 1 * j.val; rw [e2]; omega

/-- The table's block at point `t`: rows `256·(t/8) + r`. -/
theorem blk_comb (c : Dev nD) (t : Fin cfg0.N) (r : Fin 256) (e' : Fin 8) (hr : 256 * (t.val / 8) + r.val < 8192) :
    (iblk m c 4 t : Vec Ideal S256x8 .f32) (ix2 r e')
      = combTable (m ((c : Thread nD τ).loc main_arg1)) (m ((c : Thread nD τ).loc main_arg2)) (ix2 ⟨256 * (t.val / 8) + r.val, hr⟩ e') := by
  obtain ⟨-, -, -, -, -, -, -, -, -, -, -, e0, e1, -⟩ := idx_facts t
  unfold iblk
  rw [View.read_apply]
  show V m c main_v8 _ = _
  rw [V_comb]
  refine congrArg _ (funext fun a => Fin.ext ?_)
  match a with
  | ⟨0, _⟩ => show win0_4.index t (0 : Fin 2) * 256 + 1 * r.val = 256 * (t.val / 8) + r.val; rw [e0]; omega
  | ⟨1, _⟩ => show win0_4.index t (1 : Fin 2) * 8 + 1 * e'.val = e'.val; rw [e1]; omega

end Cert.KernelIdeal.Blocks

end
-- ==== Proof.KFold.lean ====
/-
  The accumulator after every grid point IS the specification's partial sum.
  Grid point `n` works on tile `n / 8` (tokens `256·(n/8) + r`) and expert `n % 8`. Its blocks are the tile's rows of
  the activations and of the routing table and the expert's three weight slabs, so the body's multiply-add at `(r, j)`
  adds exactly the specification's term for that expert: output times combined weight — the table's column picked by
  the mask is the slots' weights that name the expert. By induction on the point, the accumulator after point `n`
  holds, at `(r, j)`, the partial sum over experts `0 … n % 8` for token `256·(n/8) + r`; at a tile's last expert the
  output block holds the same.
-/
import proofs.«142969_j18502719111701_1_alg».proof.Proof.Spec
import proofs.«142969_j18502719111701_1_alg».proof.Proof.KBody
import proofs.«142969_j18502719111701_1_alg».proof.Proof.KPieces
import proofs.«142969_j18502719111701_1_alg».proof.Proof.KBlocks
import proofs.«142969_j18502719111701_1_alg».proof.Proof.Gen.KernelIdeal.Value

noncomputable section

open scoped BigOperators

namespace Cert.KernelIdeal.Fold

open Cert.KernelIdeal Cert.KernelIdeal.Gen Idealize.ShloMosaic Idealize.ShloMosaic.TcCoe Idealize.SL.Sem
open Idealize.ShloMosaic.ValueIdx Cert.KernelIdeal.Body Cert.KernelIdeal.Pieces Cert.KernelIdeal.Blocks

variable (m : (ℓ : Loc nD τ sig) → Buf (Elt Ideal) ℓ)

/-- The six argument arrays on core `c`. -/
abbrev aX (c : Dev nD) : Moe.Act := m ((c : Thread nD τ).loc main_arg0)
abbrev aI (c : Dev nD) : Moe.Slot := m ((c : Thread nD τ).loc main_arg1)
abbrev aW (c : Dev nD) : Moe.SlotW := m ((c : Thread nD τ).loc main_arg2)
abbrev aG (c : Dev nD) : Moe.Up := m ((c : Thread nD τ).loc main_arg3)
abbrev aU (c : Dev nD) : Moe.Up := m ((c : Thread nD τ).loc main_arg4)
abbrev aD (c : Dev nD) : Moe.Down := m ((c : Thread nD τ).loc main_arg5)

/-- Row `r` of tile `q` is token `256·q + r`. -/
def tok (q : ℕ) (hq : q < 32) (r : Fin 256) : Fin 8192 := ⟨256 * q + r.val, by have := r.isLt; omega⟩

theorem tok_congr {q q' : ℕ} (e : q = q') (hq : q < 32) (hq' : q' < 32) (r : Fin 256) : tok q hq r = tok q' hq' r := by
  subst e; rfl

/-- The partial sum depends on the token and on the number of experts only through their values. -/
theorem accum_congr (x : Moe.Act) (idx : Moe.Slot) (w : Moe.SlotW) (Wg Wu : Moe.Up) (Wd : Moe.Down) {t t' : Fin 8192}
    {j j' : Fin 1024} {k k' : ℕ} (et : t = t') (ej : j = j') (ek : k = k') (h : k ≤ 8) (h' : k' ≤ 8) :
    Moe.accum x idx w Wg Wu Wd t j k h = Moe.accum x idx w Wg Wu Wd t' j' k' h' := by
  subst et; subst ej; subst ek; rfl

/-- Two expert numbers as 32-bit words are equal exactly when the numbers are. -/
theorem cmp_eq : ∀ a b : Fin 8, IntOp.cmpi .eq (BitVec.ofNat 32 a.val) (BitVec.ofNat 32 b.val) = if a = b then 1#1 else 0#1 := by
  decide

/-- The masked sum along a table row picks the expert's column: the token's combined weight for the expert. -/
theorem pick_eq (a : BitVec 32) (x4 : Vec Ideal S256x8 .f32) (idx : Moe.Slot) (w : Moe.SlotW) (e : Fin 8) (t : Fin 8192) (r : Fin 256)
    (ha : a = BitVec.ofNat 32 e.val) (h4 : ∀ e' : Fin 8, x4 (ix2 r e') = combTable idx w (ix2 t e')) :
    pick a x4 r = Moe.weight idx w e t := by
  subst ha
  unfold pick
  rw [Finset.sum_eq_single e]
  · rw [cmp_eq, if_pos rfl, select_one, h4, combTable_apply, zero_add]; rfl
  · intro e' _ hne; rw [cmp_eq, if_neg hne, select_zero]
  · intro h; exact absurd (Finset.mem_univ e) h

/-- The body's expert output over blocks that are the token's activations and the expert's weight slabs is the
    specification's. -/
theorem outp_eq (x0 : Vec Ideal S256x1024 .bf16) (x1 x2 : Vec Ideal S1x1024x2048 .bf16) (x3 : Vec Ideal S1x2048x1024 .bf16)
    (x : Moe.Act) (Wg Wu : Moe.Up) (Wd : Moe.Down) (e : Fin 8) (t : Fin 8192) (r : Fin 256) (j : Fin 1024)
    (h0 : ∀ d, x0 (ix2 r d) = x (ix2 t d)) (h1 : ∀ d h, x1 (ix3 (0 : Fin 1) d h) = Wg (ix3 e h d))
    (h2 : ∀ d h, x2 (ix3 (0 : Fin 1) d h) = Wu (ix3 e h d)) (h3 : ∀ h, x3 (ix3 (0 : Fin 1) h j) = Wd (ix3 e j h)) :
    outp x0 x1 x2 x3 r j = Moe.expertOut x Wg Wu Wd e t j := by
  have hu : ∀ (y : Vec Ideal S1x1024x2048 .bf16) (W : Moe.Up), (∀ d h, y (ix3 (0 : Fin 1) d h) = W (ix3 e h d)) →
      ∀ h, up x0 y r h = Moe.proj x W e t h := fun y W hy h => by
    unfold up Moe.proj
    exact Finset.sum_congr rfl fun d _ => by rw [h0, hy]
  unfold outp Moe.expertOut hid Moe.hidden
  exact Finset.sum_congr rfl fun h _ => by rw [hu x1 Wg h1, hu x2 Wu h2, h3]

/-- The partial sums the accumulator should hold after point `n`: experts `0 … n % 8` of tile `n / 8`. -/
def partialTile (c : Dev nD) (n : ℕ) (hn : n < 256) : Vec Ideal S256x1024 .f32 := fun y =>
  Moe.accum (aX m c) (aI m c) (aW m c) (aG m c) (aU m c) (aD m c) (tok (n / 8) (by omega) (y 0)) (y 1) (n % 8 + 1) (by omega)

/-- ONE POINT: the body's multiply-add over the point's blocks, from an accumulator holding the partial sum over the
    experts before this one, is the partial sum through this one. -/
theorem point_eq (c : Dev nD) (t : Fin cfg0.N) (hN : t.val < 256) (acc : Vec Ideal S256x1024 .f32)
    (hacc : ∀ (r : Fin 256) (j : Fin 1024), acc (ix2 r j)
      = Moe.accum (aX m c) (aI m c) (aW m c) (aG m c) (aU m c) (aD m c) (tok (t.val / 8) (by omega) r) j (t.val % 8) (by omega)) :
    k0_pay3 (F := Ideal) (grid0.coords t) (iblk m c 0 t) (iblk m c 1 t) (iblk m c 2 t) (iblk m c 3 t) (iblk m c 4 t) acc = partialTile m c t.val hN := by
  funext y
  obtain ⟨r, j, rfl⟩ : ∃ (r : Fin 256) (j : Fin 1024), y = ix2 r j := ⟨y 0, y 1, eq_ix2 y⟩
  refine (pay3_apply (grid0.coords t) (iblk m c 0 t) (iblk m c 1 t) (iblk m c 2 t) (iblk m c 3 t) (iblk m c 4 t) acc r j).trans ?_
  have he : (grid0.coords t (1 : Fin 2)).val = t.val % 8 := (idx_facts t).2.2.2.2.2.2.2.2.2.2.2.2.2.2.2
  have hk : t.val % 8 < 8 := by omega
  have hr : 256 * (t.val / 8) + r.val < 8192 := by have := r.isLt; omega
  show _ = Moe.accum (aX m c) (aI m c) (aW m c) (aG m c) (aU m c) (aD m c) (tok (t.val / 8) _ r) j (t.val % 8 + 1) _
  rw [Moe.accum_succ, hacc r j]
  refine congrArg₂ (· + ·) rfl (congrArg₂ (· * ·) ?_ ?_)
  · exact outp_eq (iblk m c 0 t) (iblk m c 1 t) (iblk m c 2 t) (iblk m c 3 t)  (aX m c) (aG m c) (aU m c) (aD m c) ⟨t.val % 8, hk⟩
      (tok (t.val / 8) (by omega) r) r j (fun d => blk_act m c t r d hr) (fun d h => blk_gate m c t d h hk)
      (fun d h => blk_upw m c t d h hk) (fun h => blk_down m c t h j hk)
  · exact pick_eq _ (iblk m c 4 t) (aI m c) (aW m c) ⟨t.val % 8, hk⟩ (tok (t.val / 8) (by omega) r) r
      (congrArg (BitVec.ofNat 32) he) (fun e' => blk_comb m c t r e' hr)

/-- The zero tile the body stores at a tile's first expert. -/
theorem zeros_apply (y : S256x1024.Idx) : k0_pay2 (F := Ideal) y = 0 := by
  unfold k0_pay2
  rw [shapeCast_self]
  show Ideal.ofBits .f32 0x00000000#32 = 0
  exact Ideal.ofBits_zero_f32

/-- What the point before left is the partial sum over the experts before this one (same tile: not a first expert). -/
theorem pred_apply (c : Dev nD) (n : ℕ) (hN : n < 256) (h0 : ¬n % 8 = 0) (r : Fin 256) (j : Fin 1024) :
    partialTile m c (n - 1) (by omega) (ix2 r j)
      = Moe.accum (aX m c) (aI m c) (aW m c) (aG m c) (aU m c) (aD m c) (tok (n / 8) (by omega) r) j (n % 8) (by omega) := by
  unfold partialTile
  exact accum_congr _ _ _ _ _ _ (tok_congr (by omega) _ _ r) rfl (by omega) _ _

/-- THE INVARIANT: after point `n` the accumulator holds the partial sums through expert `n % 8` of tile `n / 8`. -/
theorem scratch_eq (c : Dev nD) (n : ℕ) : ∀ (hn : n < cfg0.N) (hN : n < 256), (outsAt0 m c n hn).2 = partialTile m c n hN := by
  induction n using Nat.strong_induction_on with
  | _ n ih =>
    intro hn hN
    by_cases h0 : n % 8 = 0
    · have h1 : ¬n % 8 = 7 := by omega
      rw [outsAt0_A m c ⟨n, hn⟩ h0 h1]
      dsimp only
      refine (scratch_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) _ _).trans ?_
      refine point_eq m c ⟨n, hn⟩ hN _ fun r j => ?_
      rw [zeros_apply]
      exact accum_congr _ _ _ _ _ _ rfl rfl (by dsimp only; omega) (Nat.zero_le 8) _
    · have hp : n - 1 < n := by omega
      have ihp := ih (n - 1) hp (by omega) (by omega)
      by_cases h1 : n % 8 = 7
      · rw [outsAt0_C m c ⟨n, hn⟩ h0 h1]
        dsimp only
        refine (scratch_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) _ _ _).trans ?_
        refine point_eq m c ⟨n, hn⟩ hN _ fun r j => ?_
        rw [ihp]
        exact pred_apply m c n hN h0 r j
      · rw [outsAt0_B m c ⟨n, hn⟩ h0 h1]
        dsimp only
        refine (scratch_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) scM0_0 (Memref.isWhole_whole _) (iblk m c 0 ⟨n, hn⟩) (iblk m c 1 ⟨n, hn⟩) (iblk m c 2 ⟨n, hn⟩) (iblk m c 3 ⟨n, hn⟩) (iblk m c 4 ⟨n, hn⟩) _ _ _).trans ?_
        refine point_eq m c ⟨n, hn⟩ hN _ fun r j => ?_
        rw [ihp]
        exact pred_apply m c n hN h0 r j

/-- At a tile's last expert the output block holds the same partial sums: all eight experts. -/
theorem out_eq (c : Dev nD) (t : Fin cfg0.N) (hN : t.val < 256) (h7 : t.val % 8 = 7) :
    (outsAt0 m c t.val t.isLt).1 = partialTile m c t.val hN := by
  have h0 : ¬t.val % 8 = 0 := by omega
  rw [outsAt0_C m c t h0 h7]
  dsimp only
  refine (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) (iblk m c 3 t) (iblk m c 4 t) _ _ _).trans ?_
  refine point_eq m c t hN _ fun r j => ?_
  rw [scratch_eq m c (t.val - 1) _ (by omega)]
  exact pred_apply m c t.val hN h0 r j

end Cert.KernelIdeal.Fold

end
-- ==== Proof.KFinal.lean ====
/-
  From blocks to the array. The output's block index is the tile, and a tile's block is written back once, after the
  tile's last expert (the points `8·q + 7`), holding the full sum over the eight experts for the tile's 256 tokens. The
  32 tiles' blocks are rows `256·q … 256·q + 255`: they tile the [8192, 1024] result, so after the run the result array
  is the specification's layer of the six argument arrays.
-/
import proofs.«142969_j18502719111701_1_alg».proof.Proof.KFold

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.KernelIdeal.Blocks Cert.KernelIdeal.Fold

variable (m : (ℓ : Loc nD τ sig) → Buf (Elt Ideal) ℓ) (ρ : Dev nD → PrngReg)

/-- The layer of core `c`'s six argument arrays, as contents of the result array. -/
abbrev result (c : Dev nD) : Buf (Elt Ideal) ((c : Thread nD τ).loc main_v16) :=
  Moe.layer (aX m c) (aI m c) (aW m c) (aG m c) (aU m c) (aD m c)

/-- WHAT A WRITE-BACK WRITES: at a tile's last expert, the tile's rows of the layer. -/
theorem flushed_eq (c : Dev nD) (t : Fin cfg0.N) (hf : (cfg0.win 5).flush t = true) :
    (dats m 0 c).flushed 5 t = ((cfg0.win 5).blk t).view.read (Elt Ideal) (result m c) := by
  have hN : t.val < 256 := lt_of_lt_of_eq t.isLt (show cfg0.N = 256 from N_0)
  have h7 : t.val % 8 = 7 := (flush0_5 t).mp hf
  obtain ⟨-, -, -, -, -, -, -, -, -, -, -, -, -, e0, e1, -⟩ := idx_facts t
  rw [Cert.KernelIdeal.Value.flushed5, out_eq m c t hN h7]
  funext y
  obtain ⟨r, j, rfl⟩ : ∃ (r : Fin 256) (j : Fin 1024), y = ix2 r j := ⟨y 0, y 1, eq_ix2 y⟩
  rw [View.read_apply]
  show partialTile m c t.val hN (ix2 r j) = Moe.layer _ _ _ _ _ _ (((cfg0.win 5).blk t).view.emb (ix2 r j))
  unfold partialTile Moe.layer
  refine accum_congr _ _ _ _ _ _ (Fin.ext ?_) (Fin.ext ?_) (by omega) _ _
  · show 256 * (t.val / 8) + r.val = win0_5.index t (0 : Fin 2) * 256 + 1 * r.val
    rw [e0]; omega
  · show j.val = win0_5.index t (1 : Fin 2) * 1024 + 1 * j.val
    rw [e1]; omega

/-- An index of the result is in point `t`'s block iff each coordinate is in the block's range on its axis. -/
theorem mem_blk (t : Fin cfg0.N) (i : S8192x1024.Idx) :
    i ∈ ((cfg0.win 5).blk t).view.set
      ↔ ∀ a : Fin 2, win0_5.index t a * S256x1024.size a ≤ (i a).val ∧ (i a).val < win0_5.index t a * S256x1024.size a + S256x1024.size a := by
  show i ∈ ((View.whole main_v16).slice (win0_5.rect t)).set ↔ _
  rw [View.set_slice_whole, Rect.mem_set_unit]
  exact Iff.rfl

/-- Every index of the result lies in the block some tile's last point writes back: row `ρ` in tile `ρ / 256`. -/
theorem cover (i : S8192x1024.Idx) : ∃ t : Fin cfg0.N, (cfg0.win 5).flush t = true ∧ i ∈ ((cfg0.win 5).blk t).view.set := by
  have h0 : (i 0).val < 8192 := (i 0).isLt
  have h1 : (i 1).val < 1024 := (i 1).isLt
  have hlt : 8 * ((i 0).val / 256) + 7 < cfg0.N := by rw [show cfg0.N = 256 from N_0]; omega
  refine ⟨⟨8 * ((i 0).val / 256) + 7, hlt⟩, (flush0_5 _).mpr (by show (8 * ((i 0).val / 256) + 7) % 8 = 7; omega), ?_⟩
  obtain ⟨-, -, -, -, -, -, -, -, -, -, -, -, -, e0, e1, -⟩ := idx_facts ⟨8 * ((i 0).val / 256) + 7, hlt⟩
  rw [mem_blk]
  intro a
  match a with
  | ⟨0, _⟩ =>
    show win0_5.index _ (0 : Fin 2) * 256 ≤ (i 0).val ∧ (i 0).val < win0_5.index _ (0 : Fin 2) * 256 + 256
    rw [e0]; dsimp only; omega
  | ⟨1, _⟩ =>
    show win0_5.index _ (1 : Fin 2) * 1024 ≤ (i 1).val ∧ (i 1).val < win0_5.index _ (1 : Fin 2) * 1024 + 1024
    rw [e1]; omega

/-- THE RESULT ARRAY after the run is the layer. -/
theorem final (c : Dev nD) : (dats m 0 c).arrAt 5 cfg0.N = result m c :=
  (dats m 0 c).arrAt_eq_of_cover 5 (result m c) (flushed_eq m c) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Final

end
-- ==== Proof.lean ====
/-
  A mixture-of-experts layer (8192 tokens of width 1024, eight gated two-layer experts of hidden width 2048, two routing
  slots per token): a tiled kernel against the plain loop over the experts, equal over the extended reals.

  The reference adds, expert by expert from zero, the expert's output for every token times the token's combined
  routing weight for that expert: out = (((0 + o₀·w₀) + o₁·w₁) + …) + o₇·w₇, with
    o_e (t, j) = ∑ h, (g · logistic g · u)(t, h) · Wd e j h,   g (t, h) = ∑ d, x t d · Wg e h d,   u likewise with Wu,
    w_e (t) = ∑ k, (w t k if idx t k = e else 0).
  The kernel tiles the tokens by 256 and walks (tile, expert): it zeroes a [256, 1024] accumulator at a tile's first
  expert, adds o_e · w_e for the tile at every expert, and copies the accumulator to the result at the tile's last
  expert. It reads w_e off a precomputed [8192, 8] table by a masked sum along the table's row, which picks one column;
  its weight blocks are the experts' matrices transposed on the host, its matrix products run into a zero accumulator,
  and its gate is the one operation logistic where the reference spells 1 / (1 + exp (−g)) — by definition the same
  function of an extended real. So both programs compute the SAME sums in the SAME association (Proof/Spec.lean), and
  nothing about the extended reals is used beyond 0 + a = a: the inputs' finiteness is not needed.

  Proof/KBody.lean reads the kernel body's arithmetic at an index, Proof/KPieces.lean what each grid point leaves in
  the accumulator and the output block, Proof/KBlocks.lean the blocks a point works on, Proof/KFold.lean the induction
  over the grid points (the accumulator holds the specification's partial sum), Proof/KFinal.lean the result array;
  Proof/RefValue.lean reads the reference's term, expert by expert, as the same specification.
-/
import proofs.«142969_j18502719111701_1_alg».proof.Defs
import proofs.«142969_j18502719111701_1_alg».proof.Proof.Gen.Kernel
import proofs.«142969_j18502719111701_1_alg».proof.Proof.Gen.Kernel.Skeleton
import proofs.«142969_j18502719111701_1_alg».proof.Proof.Gen.Kernel.Launch
import proofs.«142969_j18502719111701_1_alg».proof.Proof.Gen.Kernel.Points
import proofs.«142969_j18502719111701_1_alg».proof.Proof.Gen.Kernel.Frame
import proofs.«142969_j18502719111701_1_alg».proof.Proof.Gen.KernelIdeal
import proofs.«142969_j18502719111701_1_alg».proof.Proof.Gen.KernelIdeal.Skeleton
import proofs.«142969_j18502719111701_1_alg».proof.Proof.Gen.KernelIdeal.Launch
import proofs.«142969_j18502719111701_1_alg».proof.Proof.Gen.KernelIdeal.Points
import proofs.«142969_j18502719111701_1_alg».proof.Proof.Gen.KernelIdeal.Frame
import proofs.«142969_j18502719111701_1_alg».proof.Proof.Gen.ReferenceIdeal
import proofs.«142969_j18502719111701_1_alg».proof.Proof.Gen.Pre_finite_inputs
import proofs.«142969_j18502719111701_1_alg».proof.Proof.Gen.KernelIdeal.Value
import proofs.«142969_j18502719111701_1_alg».proof.Proof.RefRunP
import proofs.«142969_j18502719111701_1_alg».proof.Proof.RefValue
import proofs.«142969_j18502719111701_1_alg».proof.Proof.KFinal
import Idealize.ShloMosaic.Adequacy
import Idealize.ShloMosaic.Init

noncomputable section

namespace Cert.Proof

open Idealize.ShloMosaic Idealize.ShloMosaic.TcCoe Idealize.SL.Sem

/-- The three programs run, fault nowhere, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Over the extended reals the kernel's result array ends at the layer of its arguments, and the reference's at the
    same layer of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
